-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x1x192x192x192 : Shape := ⟨5, ![3, 1, 192, 192, 192]⟩
abbrev S3 : Shape := ⟨1, ![3]⟩
abbrev S_ : Shape := ⟨0, ![]⟩

class Facts : Prop where
  bcast_S_S3x1x192x192x192 : S_.BroadcastsInDim S3x1x192x192x192 (![] : Fin 0 → Fin S3x1x192x192x192.rank)
  reducesTo_S3x1x192x192x192_S_d0_1_2_3_4 : S3x1x192x192x192.ReducesTo [0, 1, 2, 3, 4] S_
  h_S_ : 0 < S_.numel
  bcast_S_S3 : S_.BroadcastsInDim S3 (![] : Fin 0 → Fin S3.rank)
  reducesTo_S3_S_d0 : S3.ReducesTo [0] S_

variable [Facts]

def fn {F : FTy → Type} [FloatOps F] (main_arg0 : FVec F S3x1x192x192x192 .f32) (main_arg1 : FVec F S3x1x192x192x192 .f32) (main_arg2 : FVec F S3 .f32) : IVec S_ 1 :=
  let main_v0 : FVec F S3x1x192x192x192 .f32 := Host.absf main_arg0
  let main_cst : FVec F S_ .f32 := constant S_ .f32 0x7F800000#32
  let main_v1 : FVec F S3x1x192x192x192 .f32 := broadcastInDim S3x1x192x192x192 ![] bcast_S_S3x1x192x192x192 main_cst
  let main_v2 : IVec S3x1x192x192x192 1 := cmpf .olt main_v0 main_v1
  let main_c : IVec S_ 1 := constantI S_ 1 1#1
  let main_v3 : IVec S_ 1 := (fun x v => Host.reduce IntOp.andi x v reducesTo_S3x1x192x192x192_S_d0_1_2_3_4 h_S_) main_v2 main_c
  let main_v4 : FVec F S3x1x192x192x192 .f32 := Host.absf main_arg1
  let main_cst_0 : FVec F S_ .f32 := constant S_ .f32 0x7F800000#32
  let main_v5 : FVec F S3x1x192x192x192 .f32 := broadcastInDim S3x1x192x192x192 ![] bcast_S_S3x1x192x192x192 main_cst_0
  let main_v6 : IVec S3x1x192x192x192 1 := cmpf .olt main_v4 main_v5
  let main_c_1 : IVec S_ 1 := constantI S_ 1 1#1
  let main_v7 : IVec S_ 1 := (fun x v => Host.reduce IntOp.andi x v reducesTo_S3x1x192x192x192_S_d0_1_2_3_4 h_S_) main_v6 main_c_1
  let main_v8 : IVec S_ 1 := andi main_v3 main_v7
  let main_v9 : FVec F S3 .f32 := Host.absf main_arg2
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  main_v13
-- ==== Kernel.lean ====
abbrev S3x1x192x192x192 : Shape := ⟨5, ![3, 1, 192, 192, 192]⟩
abbrev S3 : Shape := ⟨1, ![3]⟩
abbrev S3x13824x512 : Shape := ⟨3, ![3, 13824, 512]⟩
abbrev S2x3x1 : Shape := ⟨3, ![2, 3, 1]⟩
abbrev S3x864x512 : Shape := ⟨3, ![3, 864, 512]⟩
abbrev S1x3x1 : Shape := ⟨3, ![1, 3, 1]⟩
abbrev S3x1 : Shape := ⟨2, ![3, 1]⟩
abbrev S3x864 : Shape := ⟨2, ![3, 864]⟩
abbrev S_ : Shape := ⟨0, ![]⟩

abbrev nBuf : Space → Nat
  | .hbm => 38
  | .vmem => 10
  | .smem => 0
  | _ => 0

abbrev bufTy : (tb : Table) → Fin (tcTables nBuf tb) → BufTy
  | .hbm, ⟨0, _⟩ => ⟨S3x1x192x192x192, .f32⟩
  | .hbm, ⟨1, _⟩ => ⟨S3x1x192x192x192, .f32⟩
  | .hbm, ⟨2, _⟩ => ⟨S3, .f32⟩
  | .hbm, ⟨3, _⟩ => ⟨S3x13824x512, .f32⟩
  | .hbm, ⟨4, _⟩ => ⟨S3x13824x512, .f32⟩
  | .hbm, ⟨5, _⟩ => ⟨S2x3x1, .f32⟩
  | .hbm, ⟨6, _⟩ => ⟨S2x3x1, .f32⟩
  | .hbm, ⟨7, _⟩ => ⟨S2x3x1, .f32⟩
  | .hbm, ⟨8, _⟩ => ⟨S_, .f32⟩
  | .hbm, ⟨9, _⟩ => ⟨S3x1, .f32⟩
  | .hbm, ⟨10, _⟩ => ⟨S3, .f32⟩
  | .hbm, ⟨11, _⟩ => ⟨S3, .f32⟩
  | .hbm, ⟨12, _⟩ => ⟨S_, .f32⟩
  | .hbm, ⟨13, _⟩ => ⟨S3x1, .f32⟩
  | .hbm, ⟨14, _⟩ => ⟨S3, .f32⟩
  | .hbm, ⟨15, _⟩ => ⟨S3, .f32⟩
  | .hbm, ⟨16, _⟩ => ⟨S_, .f32⟩
  | .hbm, ⟨17, _⟩ => ⟨S3x1, .f32⟩
  | .hbm, ⟨18, _⟩ => ⟨S3, .f32⟩
  | .hbm, ⟨19, _⟩ => ⟨S3, .f32⟩
  | .hbm, ⟨20, _⟩ => ⟨S_, .f32⟩
  | .hbm, ⟨21, _⟩ => ⟨S3, .f32⟩
  | .hbm, ⟨22, _⟩ => ⟨S3, .f32⟩
  | .hbm, ⟨23, _⟩ => ⟨S_, .f32⟩
  | .hbm, ⟨24, _⟩ => ⟨S3, .f32⟩
  | .hbm, ⟨25, _⟩ => ⟨S3, .f32⟩
  | .hbm, ⟨26, _⟩ => ⟨S3, .f32⟩
  | .hbm, ⟨27, _⟩ => ⟨S_, .f32⟩
  | .hbm, ⟨28, _⟩ => ⟨S3, .f32⟩
  | .hbm, ⟨29, _⟩ => ⟨S3, .f32⟩
  | .hbm, ⟨30, _⟩ => ⟨S3, .f32⟩
  | .hbm, ⟨31, _⟩ => ⟨S_, .f32⟩
  | .hbm, ⟨32, _⟩ => ⟨S3, .f32⟩
  | .hbm, ⟨33, _⟩ => ⟨S3, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S3x864x512, .f32⟩
  | .local _ .vmem, ⟨1, _⟩ => ⟨S3x864x512, .f32⟩
  | .local _ .vmem, ⟨2, _⟩ => ⟨S3x864x512, .f32⟩
  | .local _ .vmem, ⟨3, _⟩ => ⟨S3x864x512, .f32⟩
  | .local _ .vmem, ⟨4, _⟩ => ⟨S1x3x1, .f32⟩
  | .local _ .vmem, ⟨5, _⟩ => ⟨S1x3x1, .f32⟩
  | .local _ .vmem, ⟨6, _⟩ => ⟨S1x3x1, .f32⟩
  | .local _ .vmem, ⟨7, _⟩ => ⟨S1x3x1, .f32⟩
  | .local _ .vmem, ⟨8, _⟩ => ⟨S1x3x1, .f32⟩
  | .local _ .vmem, ⟨9, _⟩ => ⟨S1x3x1, .f32⟩
  | _, _ => ⟨S3x1x192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x864x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x864x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S3x1x192x192x192_S3x13824x512 : S3x1x192x192x192.ShapeCasts S3x13824x512
  inb_S1x3x1_S1x3x1_0_0_0 : ∀ a, (![0, 0, 0] : Fin 3 → Nat) a + S1x3x1.size a ≤ S1x3x1.size a
  h_S1x3x1 : 0 < S1x3x1.numel
  shapeCasts_S1x3x1_S3x1 : S1x3x1.ShapeCasts S3x1
  shapeCasts_S3x1_S1x3x1 : S3x1.ShapeCasts S1x3x1
  inb_S3x864x512_S3x864x512_0_0_0 : ∀ a, (![0, 0, 0] : Fin 3 → Nat) a + S3x864x512.size a ≤ S3x864x512.size a
  h_S3x864x512 : 0 < S3x864x512.numel
  shapeCasts_S3x864x512_S3x864x512 : S3x864x512.ShapeCasts S3x864x512
  reduces_S3x864x512_S3x864 : S3x864x512.Reduces [2] S3x864
  reduces_S3x864_S3 : S3x864.Reduces [1] S3
  shapeCasts_S3_S3x1 : S3.ShapeCasts S3x1
  reducesTo_S2x3x1_S3x1_d0 : S2x3x1.ReducesTo [0] S3x1
  h_S_ : 0 < S_.numel
  shapeCasts_S3x1_S3 : S3x1.ShapeCasts S3
  bcast_S_S3 : S_.BroadcastsInDim S3 (![] : Fin 0 → Fin S3.rank)
  reducesTo_S3_S_d0 : S3.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x864x512.size a ≤ S3x13824x512.size a
  hwx0_0 : ∀ i : grid0.Coords, EltTy.bits .f32 = 32 ∨ (Rect.block (s := S3x13824x512) S3x864x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x864x512.size a ≤ S3x13824x512.size a
  hwx0_1 : ∀ i : grid0.Coords, EltTy.bits .f32 = 32 ∨ (Rect.block (s := S3x13824x512) S3x864x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x1.size a ≤ S2x3x1.size a
  hwx0_2 : ∀ i : grid0.Coords, EltTy.bits .f32 = 32 ∨ (Rect.block (s := S2x3x1) S1x3x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x1.size a ≤ S2x3x1.size a
  hwx0_3 : ∀ i : grid0.Coords, EltTy.bits .f32 = 32 ∨ (Rect.block (s := S2x3x1) S1x3x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x3x1.size a ≤ S2x3x1.size a
  hwx0_4 : ∀ i : grid0.Coords, EltTy.bits .f32 = 32 ∨ (Rect.block (s := S2x3x1) S1x3x1.size (cc0_transform_4 i) (hinb0_4 i)).WholeWords (EltTy.packing .f32)

variable [Facts₀]

abbrev win0_0 : Pipeline.Window sig grid0 :=
  Pipeline.Window.ofSpec (Memref.whole main_v0) S3x864x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x864x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x3x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x3x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_2) S1x3x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S3x1x192x192x192 : Shape := ⟨5, ![3, 1, 192, 192, 192]⟩
abbrev S3 : Shape := ⟨1, ![3]⟩
abbrev S_ : Shape := ⟨0, ![]⟩
abbrev S3x7077888 : Shape := ⟨2, ![3, 7077888]⟩

abbrev nBuf : Space → Nat
  | .hbm => 41
  | .vmem => 0
  | .smem => 0
  | _ => 0

abbrev bufTy : (tb : Table) → Fin (tcTables nBuf tb) → BufTy
  | .hbm, ⟨0, _⟩ => ⟨S3x1x192x192x192, .f32⟩
  | .hbm, ⟨1, _⟩ => ⟨S3x1x192x192x192, .f32⟩
  | .hbm, ⟨2, _⟩ => ⟨S3, .f32⟩
  | .hbm, ⟨3, _⟩ => ⟨S3x1x192x192x192, .f32⟩
  | .hbm, ⟨4, _⟩ => ⟨S3x1x192x192x192, .f32⟩
  | .hbm, ⟨5, _⟩ => ⟨S_, .f32⟩
  | .hbm, ⟨6, _⟩ => ⟨S3x1x192x192x192, .f32⟩
  | .hbm, ⟨7, _⟩ => ⟨S3x1x192x192x192, .f32⟩
  | .hbm, ⟨8, _⟩ => ⟨S_, .f32⟩
  | .hbm, ⟨9, _⟩ => ⟨S3x1x192x192x192, .f32⟩
  | .hbm, ⟨10, _⟩ => ⟨S3x1x192x192x192, .f32⟩
  | .hbm, ⟨11, _⟩ => ⟨S3x7077888, .f32⟩
  | .hbm, ⟨12, _⟩ => ⟨S3x7077888, .f32⟩
  | .hbm, ⟨13, _⟩ => ⟨S3x7077888, .f32⟩
  | .hbm, ⟨14, _⟩ => ⟨S_, .f32⟩
  | .hbm, ⟨15, _⟩ => ⟨S3, .f32⟩
  | .hbm, ⟨16, _⟩ => ⟨S3, .f32⟩
  | .hbm, ⟨17, _⟩ => ⟨S_, .f32⟩
  | .hbm, ⟨18, _⟩ => ⟨S3, .f32⟩
  | .hbm, ⟨19, _⟩ => ⟨S3, .f32⟩
  | .hbm, ⟨20, _⟩ => ⟨S_, .f32⟩
  | .hbm, ⟨21, _⟩ => ⟨S3, .f32⟩
  | .hbm, ⟨22, _⟩ => ⟨S3, .f32⟩
  | .hbm, ⟨23, _⟩ => ⟨S_, .f32⟩
  | .hbm, ⟨24, _⟩ => ⟨S3, .f32⟩
  | .hbm, ⟨25, _⟩ => ⟨S3, .f32⟩
  | .hbm, ⟨26, _⟩ => ⟨S_, .f32⟩
  | .hbm, ⟨27, _⟩ => ⟨S3, .f32⟩
  | .hbm, ⟨28, _⟩ => ⟨S3, .f32⟩
  | .hbm, ⟨29, _⟩ => ⟨S3, .f32⟩
  | .hbm, ⟨30, _⟩ => ⟨S_, .f32⟩
  | .hbm, ⟨31, _⟩ => ⟨S3, .f32⟩
  | .hbm, ⟨32, _⟩ => ⟨S3, .f32⟩
  | .hbm, ⟨33, _⟩ => ⟨S3, .f32⟩
  | .hbm, ⟨34, _⟩ => ⟨S_, .f32⟩
  | .hbm, ⟨35, _⟩ => ⟨S3, .f32⟩
  | .hbm, ⟨36, _⟩ => ⟨S3, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | _, _ => ⟨S3x1x192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_6 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_v24 : Ref sig .tc := ⟨.hbm, 36, rfl⟩
abbrev main_cst_8 : Ref sig .tc := ⟨.hbm, 37, rfl⟩
abbrev main_v25 : Ref sig .tc := ⟨.hbm, 38, rfl⟩
abbrev main_cst_9 : Ref sig .tc := ⟨.hbm, 39, rfl⟩
abbrev main_v26 : Ref sig .tc := ⟨.hbm, 40, rfl⟩

abbrev nD : Nat := 1
abbrev τ : Topo := Topo.v7x

variable {F : FTy → Type} [FloatOps F]

class Facts₀ : Prop where
  bcast_S_S3x1x192x192x192 : S_.BroadcastsInDim S3x1x192x192x192 (![] : Fin 0 → Fin S3x1x192x192x192.rank)
  shapeCasts_S3x1x192x192x192_S3x7077888 : S3x1x192x192x192.ShapeCasts S3x7077888
  reducesTo_S3x7077888_S3_d1 : S3x7077888.ReducesTo [1] S3
  h_S_ : 0 < S_.numel
  bcast_S_S3 : S_.BroadcastsInDim S3 (![] : Fin 0 → Fin S3.rank)
  reducesTo_S3_S_d0 : S3.ReducesTo [0] S_

variable [Facts₀]

class Facts : Prop extends Facts₀ where

variable [Facts]
-- ==== Proof.BodyValues.lean ====
/-
  What one run of the kernel body leaves in the three accumulators, as values.

  The body keeps three [1, 3, 1] accumulators, one per output: the sum of sigmoid(pred) · target, the sum of sigmoid(pred)
  and the sum of target, each over the rows and lanes of the step's [3, 864, 512] blocks and per batch entry. At the first
  step of a group (step coordinate 0) it first stores zeros and then adds the block's sums to what it reads back, so it
  leaves "zeros plus the block's sums"; at every later step it adds the block's sums to what the step before left.
  Each statement below says exactly that, with the body's own arithmetic kept as the generated payload terms.
-/
import proofs.«154562_j68908455297535_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.BodyValues

open Cert.KernelIdeal Cert.KernelIdeal.Gen

variable {F : FTy → Type} [FloatOps F]

theorem hz : (![0, 0, 0] : Fin 3 → Nat) = fun _ => 0 := funext fun a => by fin_cases a <;> rfl

/-- First step of a group, products: zeros plus the block's sums of sigmoid(pred) · target. -/
theorem first_2 (c : Dev nD) (i : grid0.Coords) (a2 : Memref sig .tc .vmem S3x864x512 .f32) (h2 : a2.IsWhole)
    (a3 : Memref sig .tc .vmem S3x864x512 .f32) (h3 : a3.IsWhole) (a4 : Memref sig .tc .vmem S1x3x1 .f32) (h4 : a4.IsWhole)
    (a5 : Memref sig .tc .vmem S1x3x1 .f32) (h5 : a5.IsWhole) (a6 : Memref sig .tc .vmem S1x3x1 .f32) (h6 : a6.IsWhole)
    (hc : cond0_0 i) (x0 x1 : Vec F S3x864x512 .f32) :
    out0_A_2 c i a2 h2 a3 h3 a4 h4 a5 h5 a6 h6 hc x0 x1 = k0_pay7 x0 x1 (k0_pay2 (F := F)) := by
  unfold out0_A_2
  rw [View.read_writes_eq_canon _ _ _ (cover0_A_2 c i a2 h2 a3 h3 a4 h4 a5 h5 a6 h6 hc x0 x1)]
  unfold kernelRun0_A
  dsimp only
  sl_unfold_words
  rw [View.canon_cons_unit_zero (S := S1x3x1) hz, View.readCov_unit_zero (S := S1x3x1) _ hz]
  simp only [View.readAt_eq_ld, h2.read_unread, h3.read_unread, View.ld_unit_zero (S := S3x864x512) hz]

/-- First step of a group, predictions: zeros plus the block's sums of sigmoid(pred). -/
theorem first_3 (c : Dev nD) (i : grid0.Coords) (a2 : Memref sig .tc .vmem S3x864x512 .f32) (h2 : a2.IsWhole)
    (a3 : Memref sig .tc .vmem S3x864x512 .f32) (h3 : a3.IsWhole) (a4 : Memref sig .tc .vmem S1x3x1 .f32) (h4 : a4.IsWhole)
    (a5 : Memref sig .tc .vmem S1x3x1 .f32) (h5 : a5.IsWhole) (a6 : Memref sig .tc .vmem S1x3x1 .f32) (h6 : a6.IsWhole)
    (hc : cond0_0 i) (x0 x1 : Vec F S3x864x512 .f32) :
    out0_A_3 c i a2 h2 a3 h3 a4 h4 a5 h5 a6 h6 hc x0 x1 = k0_pay8 x0 (k0_pay3 (F := F)) := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x3x1) hz, View.readCov_unit_zero (S := S1x3x1) _ hz]
  simp only [View.readAt_eq_ld, h2.read_unread, h3.read_unread, View.ld_unit_zero (S := S3x864x512) hz]

/-- First step of a group, targets: zeros plus the block's sums of target. -/
theorem first_4 (c : Dev nD) (i : grid0.Coords) (a2 : Memref sig .tc .vmem S3x864x512 .f32) (h2 : a2.IsWhole)
    (a3 : Memref sig .tc .vmem S3x864x512 .f32) (h3 : a3.IsWhole) (a4 : Memref sig .tc .vmem S1x3x1 .f32) (h4 : a4.IsWhole)
    (a5 : Memref sig .tc .vmem S1x3x1 .f32) (h5 : a5.IsWhole) (a6 : Memref sig .tc .vmem S1x3x1 .f32) (h6 : a6.IsWhole)
    (hc : cond0_0 i) (x0 x1 : Vec F S3x864x512 .f32) :
    out0_A_4 c i a2 h2 a3 h3 a4 h4 a5 h5 a6 h6 hc x0 x1 = k0_pay1 (k0_pay6 x1) (k0_pay4 (F := F)) := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x3x1) hz, View.readCov_unit_zero (S := S1x3x1) _ hz]
  simp only [View.readAt_eq_ld, h2.read_unread, h3.read_unread, View.ld_unit_zero (S := S3x864x512) hz]

/-- A later step, products: what the step before left plus the block's sums of sigmoid(pred) · target. -/
theorem later_2 (c : Dev nD) (i : grid0.Coords) (a2 : Memref sig .tc .vmem S3x864x512 .f32) (h2 : a2.IsWhole)
    (a3 : Memref sig .tc .vmem S3x864x512 .f32) (h3 : a3.IsWhole) (a4 : Memref sig .tc .vmem S1x3x1 .f32) (h4 : a4.IsWhole)
    (a5 : Memref sig .tc .vmem S1x3x1 .f32) (h5 : a5.IsWhole) (a6 : Memref sig .tc .vmem S1x3x1 .f32) (h6 : a6.IsWhole)
    (hc : ¬cond0_0 i) (x0 x1 : Vec F S3x864x512 .f32) (xo2 xo3 xo4 : Vec F S1x3x1 .f32) :
    out0_B_2 c i a2 h2 a3 h3 a4 h4 a5 h5 a6 h6 hc x0 x1 xo2 xo3 xo4 = k0_pay7 x0 x1 xo2 := by
  unfold out0_B_2
  rw [View.read_writes_eq_canon _ _ _ (cover0_B_2 c i a2 h2 a3 h3 a4 h4 a5 h5 a6 h6 hc x0 x1 xo2 xo3 xo4)]
  unfold kernelRun0_B
  dsimp only
  rw [View.canon_unit_zero hz]
  try sl_unfold_words
  simp only [View.readAt_eq_ld, h2.read_unread, h3.read_unread, h4.read_unread, h5.read_unread, h6.read_unread,
    View.ld_unit_zero (S := S3x864x512) hz, View.ld_unit_zero (S := S1x3x1) hz]

/-- A later step, predictions: what the step before left plus the block's sums of sigmoid(pred). -/
theorem later_3 (c : Dev nD) (i : grid0.Coords) (a2 : Memref sig .tc .vmem S3x864x512 .f32) (h2 : a2.IsWhole)
    (a3 : Memref sig .tc .vmem S3x864x512 .f32) (h3 : a3.IsWhole) (a4 : Memref sig .tc .vmem S1x3x1 .f32) (h4 : a4.IsWhole)
    (a5 : Memref sig .tc .vmem S1x3x1 .f32) (h5 : a5.IsWhole) (a6 : Memref sig .tc .vmem S1x3x1 .f32) (h6 : a6.IsWhole)
    (hc : ¬cond0_0 i) (x0 x1 : Vec F S3x864x512 .f32) (xo2 xo3 xo4 : Vec F S1x3x1 .f32) :
    out0_B_3 c i a2 h2 a3 h3 a4 h4 a5 h5 a6 h6 hc x0 x1 xo2 xo3 xo4 = k0_pay8 x0 xo3 := by
  unfold out0_B_3
  rw [View.read_writes_eq_canon _ _ _ (cover0_B_3 c i a2 h2 a3 h3 a4 h4 a5 h5 a6 h6 hc x0 x1 xo2 xo3 xo4)]
  unfold kernelRun0_B
  dsimp only
  rw [View.canon_unit_zero hz]
  try sl_unfold_words
  simp only [View.readAt_eq_ld, h2.read_unread, h3.read_unread, h4.read_unread, h5.read_unread, h6.read_unread,
    View.ld_unit_zero (S := S3x864x512) hz, View.ld_unit_zero (S := S1x3x1) hz]

/-- A later step, targets: what the step before left plus the block's sums of target. -/
theorem later_4 (c : Dev nD) (i : grid0.Coords) (a2 : Memref sig .tc .vmem S3x864x512 .f32) (h2 : a2.IsWhole)
    (a3 : Memref sig .tc .vmem S3x864x512 .f32) (h3 : a3.IsWhole) (a4 : Memref sig .tc .vmem S1x3x1 .f32) (h4 : a4.IsWhole)
    (a5 : Memref sig .tc .vmem S1x3x1 .f32) (h5 : a5.IsWhole) (a6 : Memref sig .tc .vmem S1x3x1 .f32) (h6 : a6.IsWhole)
    (hc : ¬cond0_0 i) (x0 x1 : Vec F S3x864x512 .f32) (xo2 xo3 xo4 : Vec F S1x3x1 .f32) :
    out0_B_4 c i a2 h2 a3 h3 a4 h4 a5 h5 a6 h6 hc x0 x1 xo2 xo3 xo4 = k0_pay1 (k0_pay6 x1) xo4 := by
  unfold out0_B_4
  rw [View.read_writes_eq_canon _ _ _ (cover0_B_4 c i a2 h2 a3 h3 a4 h4 a5 h5 a6 h6 hc x0 x1 xo2 xo3 xo4)]
  unfold kernelRun0_B
  dsimp only
  rw [View.canon_unit_zero hz]
  try sl_unfold_words
  simp only [View.readAt_eq_ld, h2.read_unread, h3.read_unread, h4.read_unread, h5.read_unread, h6.read_unread,
    View.ld_unit_zero (S := S3x864x512) hz, View.ld_unit_zero (S := S1x3x1) hz]

end Cert.KernelIdeal.BodyValues

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«154562_j68908455297535_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.PointValues.lean ====
/-
  The body's arithmetic read at one entry, on the extended reals.

  One step adds to each [1, 3, 1] accumulator, at (0, b, 0), the sum over the 864 rows and 512 lanes of the step's block of
  batch entry b: of sigmoid(pred) · target, of sigmoid(pred), or of target. The two nested reductions (lanes, then rows) and the
  recast of the [3] result as a [3, 1] column are plain sums here, with no order left in them; the sigmoid is the extended
  reals' 1 / (1 + e^(−x)).
-/
import proofs.«154562_j68908455297535_2_alg».proof.Proof.Gen.KernelIdeal.Skeleton
import proofs.«154562_j68908455297535_2_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PointValues

open Cert.KernelIdeal Cert.KernelIdeal.Gen Idealize.ShloMosaic Idealize.ShloMosaic.ValueIdx

/-! ## Layout -/

/-- The sum of an [A, B, C] array along its last axis, at (p, r): the sum over the lanes l of the array at (p, r, l). -/
theorem laneSum_apply {A B C : ℕ} {φ : FTy} (src : FVec Ideal ⟨3, ![A, B, C]⟩ φ) (acc : BitVec φ.bits)
    (h : (⟨3, ![A, B, C]⟩ : Shape).Reduces [2] ⟨2, ![A, B]⟩) (hφ : FKind.Formats φ) (hacc : acc = FKind.add.neutral φ hφ)
    (p : Fin A) (r : Fin B) :
    multiReduction .add [2] ⟨2, ![A, B]⟩ src acc h hφ hacc (ix2 p r) = ∑ l : Fin C, src (ix3 p r l) := by
  refine (Ideal.multiReduction_add_single src acc h hφ hacc (ix2 p r)).trans ?_
  refine Finset.sum_congr rfl fun k _ => congrArg src (funext fun c => Fin.ext ?_)
  rw [h.lift_val]
  match c with
  | ⟨0, _⟩ => rfl
  | ⟨1, _⟩ => rfl
  | ⟨2, _⟩ => rfl

/-- A [3, 1] column recast as a [1, 3, 1] block reads, at (0, b, 0), the column at (b, 0). -/
theorem toBlock_apply {α : Type} (v : S3x1.Idx → α) (h : S3x1.ShapeCasts S1x3x1) (b : Fin 3) :
    shapeCast S1x3x1 v h (ix3 (0 : Fin 1) b (0 : Fin 1)) = v (ix2 b (0 : Fin 1)) :=
  shapeCast_apply v h _ _ (by
    rw [Shape.rowMajor_val_two, Shape.rowMajor_val_three]
    show b.val * 1 + 0 = (0 * 3 + b.val) * 1 + 0
    omega)

/-- A [1, 3, 1] block recast as a [3, 1] column reads, at (b, 0), the block at (0, b, 0). -/
theorem ofBlock_apply {α : Type} (a : S1x3x1.Idx → α) (h : S1x3x1.ShapeCasts S3x1) (b : Fin 3) :
    shapeCast S3x1 a h (ix2 b (0 : Fin 1)) = a (ix3 (0 : Fin 1) b (0 : Fin 1)) :=
  shapeCast_apply a h _ _ (by
    rw [Shape.rowMajor_val_two, Shape.rowMajor_val_three]
    show (0 * 3 + b.val) * 1 + 0 = b.val * 1 + 0
    omega)

/-- The body's reduction of a [3, 864, 512] block — lanes, then rows, the [3] result recast as a [3, 1] column — at (b, 0):
    the sum over the rows r and lanes l of the block at (b, r, l). -/
theorem blockSum_apply (v : FVec Ideal S3x864x512 .f32) (b : Fin 3) :
    shapeCast S3x1 (multiReduction .add [1] S3 (multiReduction .add [2] S3x864 v 0x00000000#32 reduces_S3x864x512_S3x864 (.inl rfl) rfl)
        0x00000000#32 reduces_S3x864_S3 (.inl rfl) rfl) shapeCasts_S3_S3x1 (ix2 b (0 : Fin 1))
      = ∑ r : Fin 864, ∑ l : Fin 512, v (ix3 b r l) :=
  (Cert.Columns.keepdimsSum_apply _ _ reduces_S3x864_S3 (.inl rfl) rfl shapeCasts_S3_S3x1 b 0).trans
    (Finset.sum_congr rfl fun r _ => laneSum_apply v _ reduces_S3x864x512_S3x864 (.inl rfl) rfl b r)

/-! ## What a step adds, per batch entry -/

/-- The step's sum of sigmoid(pred) · target over the block of batch entry b. -/
def products (x0 x1 : Vec Ideal S3x864x512 .f32) (b : Fin 3) : EReal :=
  ∑ r : Fin 864, ∑ l : Fin 512, Ideal.logistic (x0 (ix3 b r l)) * x1 (ix3 b r l)

/-- The step's sum of sigmoid(pred) over the block of batch entry b. -/
def predictions (x0 : Vec Ideal S3x864x512 .f32) (b : Fin 3) : EReal :=
  ∑ r : Fin 864, ∑ l : Fin 512, Ideal.logistic (x0 (ix3 b r l))

/-- The step's sum of target over the block of batch entry b. -/
def targets (x1 : Vec Ideal S3x864x512 .f32) (b : Fin 3) : EReal :=
  ∑ r : Fin 864, ∑ l : Fin 512, x1 (ix3 b r l)

/-! ## The three accumulating payloads at (0, b, 0) -/

/-- The product accumulator after a step: what it held plus the step's sum of sigmoid(pred) · target. -/
theorem pay7_apply (x0 x1 : Vec Ideal S3x864x512 .f32) (a : Vec Ideal S1x3x1 .f32) (b : Fin 3) :
    k0_pay7 x0 x1 a (ix3 (0 : Fin 1) b (0 : Fin 1)) = a (ix3 (0 : Fin 1) b (0 : Fin 1)) + products x0 x1 b := by
  unfold k0_pay7 k0_pay5 k0_pay6 products
  dsimp only
  refine (toBlock_apply _ _ b).trans ?_
  refine congrArg₂ (· + ·) (ofBlock_apply a _ b) ((blockSum_apply _ b).trans ?_)
  refine Finset.sum_congr rfl fun r _ => Finset.sum_congr rfl fun l _ => ?_
  exact congrArg₂ (fun u v : EReal => Ideal.logistic u * v) (congrFun (shapeCast_self x0 _) _) (congrFun (shapeCast_self x1 _) _)

/-- The prediction accumulator after a step: what it held plus the step's sum of sigmoid(pred). -/
theorem pay8_apply (x0 : Vec Ideal S3x864x512 .f32) (a : Vec Ideal S1x3x1 .f32) (b : Fin 3) :
    k0_pay8 x0 a (ix3 (0 : Fin 1) b (0 : Fin 1)) = a (ix3 (0 : Fin 1) b (0 : Fin 1)) + predictions x0 b := by
  unfold k0_pay8 k0_pay5 predictions
  dsimp only
  refine (toBlock_apply _ _ b).trans ?_
  refine congrArg₂ (· + ·) (ofBlock_apply a _ b) ((blockSum_apply _ b).trans ?_)
  refine Finset.sum_congr rfl fun r _ => Finset.sum_congr rfl fun l _ => ?_
  exact congrArg (fun u : EReal => Ideal.logistic u) (congrFun (shapeCast_self x0 _) _)

/-- The target accumulator after a step: what it held plus the step's sum of target. -/
theorem pay1_apply (x1 : Vec Ideal S3x864x512 .f32) (a : Vec Ideal S1x3x1 .f32) (b : Fin 3) :
    k0_pay1 (k0_pay6 x1) a (ix3 (0 : Fin 1) b (0 : Fin 1)) = a (ix3 (0 : Fin 1) b (0 : Fin 1)) + targets x1 b := by
  unfold k0_pay1 k0_pay6 targets
  dsimp only
  refine (toBlock_apply _ _ b).trans ?_
  refine congrArg₂ (· + ·) (ofBlock_apply a _ b) ((blockSum_apply _ b).trans ?_)
  refine Finset.sum_congr rfl fun r _ => Finset.sum_congr rfl fun l _ => ?_
  exact congrFun (shapeCast_self x1 _) _

/-! ## The three zero payloads at (0, b, 0) -/

theorem pay2_apply (b : Fin 3) : k0_pay2 (F := Ideal) (ix3 (0 : Fin 1) b (0 : Fin 1)) = 0 := by
  unfold k0_pay2
  exact (toBlock_apply _ _ b).trans Ideal.ofBits_zero_f32

theorem pay3_apply (b : Fin 3) : k0_pay3 (F := Ideal) (ix3 (0 : Fin 1) b (0 : Fin 1)) = 0 := by
  unfold k0_pay3
  exact (toBlock_apply _ _ b).trans Ideal.ofBits_zero_f32

theorem pay4_apply (b : Fin 3) : k0_pay4 (F := Ideal) (ix3 (0 : Fin 1) b (0 : Fin 1)) = 0 := by
  unfold k0_pay4
  exact (toBlock_apply _ _ b).trans Ideal.ofBits_zero_f32

end Cert.KernelIdeal.PointValues

end
-- ==== Proof.LibRegroup.lean ====
/-
  Regrouping finite sums in a commutative additive monoid.

  * `sum_nest`: a sum over `A * B * (R * L)` consecutive positions is the four-fold nested sum over a group `i < A`, a
    step `j < B` inside the group, a row `r < R` inside the step and a lane `l < L` inside the row, the position of
    `(i, j, r, l)` being `((B * i + j) * R + r) * L + l`.
  * `acc_eq`: a running total that is reset to `0 + (the term)` at every position divisible by `B` and otherwise adds
    the position's term to the total before it holds, at position `B * i + j` with `j < B`, the sum of the terms of
    positions `B * i, …, B * i + j`.

  Only commutativity and associativity of addition are used, so both hold on the extended reals at the infinities too.
-/
import Mathlib.Algebra.BigOperators.Fin
import Mathlib.Logic.Equiv.Fin.Basic
import Mathlib.Tactic.Ring

namespace Cert.Regroup

variable {M : Type*} [AddCommMonoid M]

/-- A sum over `A * B * (R * L)` positions as a four-fold nested sum; `pos i j r l` is any spelling of position
    `((B * i + j) * R + r) * L + l`. -/
theorem sum_nest (A B R L N : ℕ) (hN : N = A * B * (R * L)) (T : Fin N → M)
    (pos : Fin A → Fin B → Fin R → Fin L → Fin N)
    (hpos : ∀ i j r l, (pos i j r l).val = ((B * i.val + j.val) * R + r.val) * L + l.val) :
    ∑ n, T n = ∑ i, ∑ j, ∑ r, ∑ l, T (pos i j r l) := by
  subst hN
  rw [← Equiv.sum_comp finProdFinEquiv T, Fintype.sum_prod_type,
    ← Equiv.sum_comp finProdFinEquiv (fun c : Fin (A * B) => ∑ q : Fin (R * L), T (finProdFinEquiv (c, q))),
    Fintype.sum_prod_type]
  refine Finset.sum_congr rfl fun i _ => Finset.sum_congr rfl fun j _ => ?_
  rw [← Equiv.sum_comp finProdFinEquiv (fun q : Fin (R * L) => T (finProdFinEquiv (finProdFinEquiv (i, j), q))),
    Fintype.sum_prod_type]
  refine Finset.sum_congr rfl fun r _ => Finset.sum_congr rfl fun l _ => congrArg T (Fin.ext ?_)
  rw [hpos]
  simp only [finProdFinEquiv_apply_val]
  ring

/-- The running total with resets: at position `B * i + j`, `j < B`, it is the sum of the terms from the last reset on. -/
theorem acc_eq (B K : ℕ) (bs acc : ℕ → M)
    (h0 : ∀ n, n < K → n % B = 0 → acc n = 0 + bs n)
    (hs : ∀ n, n + 1 < K → (n + 1) % B ≠ 0 → acc (n + 1) = acc n + bs (n + 1)) (i : ℕ) :
    ∀ j, j < B → B * i + j < K → acc (B * i + j) = ∑ k ∈ Finset.range (j + 1), bs (B * i + k)
  | 0, _, hK => by
    rw [h0 _ hK (by rw [Nat.add_zero]; exact Nat.mul_mod_right B i), zero_add, Finset.sum_range_one]
  | j + 1, hj, hK => by
    have hne : (B * i + j + 1) % B ≠ 0 := by
      rw [Nat.add_assoc, Nat.mul_add_mod, Nat.mod_eq_of_lt hj]
      exact Nat.succ_ne_zero j
    rw [show B * i + (j + 1) = B * i + j + 1 from rfl, hs (B * i + j) hK hne, acc_eq B K bs acc h0 hs i j (by omega) (by omega),
      Finset.sum_range_succ _ (j + 1)]
    rfl

/-- The total at the last position of group `i`: the sum of the group's `B` terms. -/
theorem acc_last (B K : ℕ) (hB : 0 < B) (bs acc : ℕ → M)
    (h0 : ∀ n, n < K → n % B = 0 → acc n = 0 + bs n)
    (hs : ∀ n, n + 1 < K → (n + 1) % B ≠ 0 → acc (n + 1) = acc n + bs (n + 1)) (i : ℕ) (hK : B * i + (B - 1) < K) :
    acc (B * i + (B - 1)) = ∑ j : Fin B, bs (B * i + j.val) := by
  rw [acc_eq B K bs acc h0 hs i (B - 1) (by omega) hK, show B - 1 + 1 = B from by omega, Finset.sum_range]

end Cert.Regroup
-- ==== Proof.Totals.lean ====
/-
  The three accumulators over the grid.

  The grid has two groups of eight steps; group i owns block i of each [2, 3, 1] output. Within a group the body's
  accumulators are reset at the first step and carried from step to step, so after the group's last step each holds, at
  (0, b, 0), the sum over the group's eight steps of what a step adds for batch entry b. This is an induction on the step,
  not an enumeration of the grid.
-/
import proofs.«154562_j68908455297535_2_alg».proof.Proof.BodyValues
import proofs.«154562_j68908455297535_2_alg».proof.Proof.PointValues
import proofs.«154562_j68908455297535_2_alg».proof.Proof.LibRegroup

set_option maxRecDepth 16384

noncomputable section

open scoped BigOperators
open Idealize.ShloMosaic Idealize.ShloMosaic.TcCoe Idealize.SL.Sem

namespace Cert.KernelIdeal.Totals

open Cert.KernelIdeal Cert.KernelIdeal.Gen Idealize.ShloMosaic.ValueIdx

variable (m : (ℓ : Loc nD τ sig) → Buf (Elt Ideal) ℓ) (c : Dev nD) (b : Fin 3)

/-! ## Products: sigmoid(pred) · target -/

/-- What step n adds for batch entry b (zero past the grid). -/
def term2 (n : ℕ) : EReal := if h : n < cfg0.N then PointValues.products (iblk m c 0 ⟨n, h⟩) (iblk m c 1 ⟨n, h⟩) b else 0

/-- What the accumulator holds at (0, b, 0) after step n (zero past the grid). -/
def tot2 (n : ℕ) : EReal := if h : n < cfg0.N then (outsAt0 m c n h).1 (ix3 (0 : Fin 1) b (0 : Fin 1)) else 0

/-- At the first step of a group the accumulator is reset: it holds zero plus the step's term. -/
theorem tot2_reset (n : ℕ) (hn : n < cfg0.N) (h0 : n % 8 = 0) : tot2 m c b n = 0 + term2 m c b n := by
  unfold tot2 term2
  rw [dif_pos hn, dif_pos hn, outsAt0_A m c ⟨n, hn⟩ h0]
  exact (congrFun (BodyValues.first_2 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩)
      ((hcond0_0 ⟨n, hn⟩).mpr h0) (iblk m c 0 ⟨n, hn⟩) (iblk m c 1 ⟨n, hn⟩)) _).trans
    ((PointValues.pay7_apply _ _ _ b).trans (congrArg (· + _) (PointValues.pay2_apply b)))

/-- At every other step it holds what the step before left plus the step's term. -/
theorem tot2_step (n : ℕ) (hn : n + 1 < cfg0.N) (h0 : (n + 1) % 8 ≠ 0) :
    tot2 m c b (n + 1) = tot2 m c b n + term2 m c b (n + 1) := by
  unfold tot2 term2
  rw [dif_pos hn, dif_pos (Nat.lt_of_succ_lt hn), dif_pos hn, outsAt0_B m c ⟨n + 1, hn⟩ h0]
  exact (congrFun (BodyValues.later_2 c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
      (fun h => h0 ((hcond0_0 ⟨n + 1, hn⟩).mp h)) (iblk m c 0 ⟨n + 1, hn⟩) (iblk m c 1 ⟨n + 1, hn⟩)
      (outsAt0 m c n (Nat.lt_of_succ_lt hn)).1 (outsAt0 m c n (Nat.lt_of_succ_lt hn)).2.1 (outsAt0 m c n (Nat.lt_of_succ_lt hn)).2.2) _).trans
    (PointValues.pay7_apply _ _ _ b)

/-- After the last step of group i the accumulator holds the sum of the group's eight terms. -/
theorem tot2_last (i : Fin 2) : tot2 m c b (8 * i.val + 7) = ∑ j : Fin 8, term2 m c b (8 * i.val + j.val) :=
  Cert.Regroup.acc_last 8 cfg0.N (by decide) (term2 m c b) (tot2 m c b) (tot2_reset m c b) (tot2_step m c b) i.val
    (by rw [show cfg0.N = 16 from N_0]; have := i.isLt; omega)

/-! ## Predictions: sigmoid(pred) -/

/-- What step n adds for batch entry b (zero past the grid). -/
def term3 (n : ℕ) : EReal := if h : n < cfg0.N then PointValues.predictions (iblk m c 0 ⟨n, h⟩) b else 0

/-- What the accumulator holds at (0, b, 0) after step n (zero past the grid). -/
def tot3 (n : ℕ) : EReal := if h : n < cfg0.N then (outsAt0 m c n h).2.1 (ix3 (0 : Fin 1) b (0 : Fin 1)) else 0

/-- At the first step of a group the accumulator is reset: it holds zero plus the step's term. -/
theorem tot3_reset (n : ℕ) (hn : n < cfg0.N) (h0 : n % 8 = 0) : tot3 m c b n = 0 + term3 m c b n := by
  unfold tot3 term3
  rw [dif_pos hn, dif_pos hn, outsAt0_A m c ⟨n, hn⟩ h0]
  exact (congrFun (BodyValues.first_3 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩)
      ((hcond0_0 ⟨n, hn⟩).mpr h0) (iblk m c 0 ⟨n, hn⟩) (iblk m c 1 ⟨n, hn⟩)) _).trans
    ((PointValues.pay8_apply _ _ b).trans (congrArg (· + _) (PointValues.pay3_apply b)))

/-- At every other step it holds what the step before left plus the step's term. -/
theorem tot3_step (n : ℕ) (hn : n + 1 < cfg0.N) (h0 : (n + 1) % 8 ≠ 0) :
    tot3 m c b (n + 1) = tot3 m c b n + term3 m c b (n + 1) := by
  unfold tot3 term3
  rw [dif_pos hn, dif_pos (Nat.lt_of_succ_lt hn), dif_pos hn, outsAt0_B m c ⟨n + 1, hn⟩ h0]
  exact (congrFun (BodyValues.later_3 c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
      (fun h => h0 ((hcond0_0 ⟨n + 1, hn⟩).mp h)) (iblk m c 0 ⟨n + 1, hn⟩) (iblk m c 1 ⟨n + 1, hn⟩)
      (outsAt0 m c n (Nat.lt_of_succ_lt hn)).1 (outsAt0 m c n (Nat.lt_of_succ_lt hn)).2.1 (outsAt0 m c n (Nat.lt_of_succ_lt hn)).2.2) _).trans
    (PointValues.pay8_apply _ _ b)

/-- After the last step of group i the accumulator holds the sum of the group's eight terms. -/
theorem tot3_last (i : Fin 2) : tot3 m c b (8 * i.val + 7) = ∑ j : Fin 8, term3 m c b (8 * i.val + j.val) :=
  Cert.Regroup.acc_last 8 cfg0.N (by decide) (term3 m c b) (tot3 m c b) (tot3_reset m c b) (tot3_step m c b) i.val
    (by rw [show cfg0.N = 16 from N_0]; have := i.isLt; omega)

/-! ## Targets -/

/-- What step n adds for batch entry b (zero past the grid). -/
def term4 (n : ℕ) : EReal := if h : n < cfg0.N then PointValues.targets (iblk m c 1 ⟨n, h⟩) b else 0

/-- What the accumulator holds at (0, b, 0) after step n (zero past the grid). -/
def tot4 (n : ℕ) : EReal := if h : n < cfg0.N then (outsAt0 m c n h).2.2 (ix3 (0 : Fin 1) b (0 : Fin 1)) else 0

/-- At the first step of a group the accumulator is reset: it holds zero plus the step's term. -/
theorem tot4_reset (n : ℕ) (hn : n < cfg0.N) (h0 : n % 8 = 0) : tot4 m c b n = 0 + term4 m c b n := by
  unfold tot4 term4
  rw [dif_pos hn, dif_pos hn, outsAt0_A m c ⟨n, hn⟩ h0]
  exact (congrFun (BodyValues.first_4 c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩)
      ((hcond0_0 ⟨n, hn⟩).mpr h0) (iblk m c 0 ⟨n, hn⟩) (iblk m c 1 ⟨n, hn⟩)) _).trans
    ((PointValues.pay1_apply _ _ b).trans (congrArg (· + _) (PointValues.pay4_apply b)))

/-- At every other step it holds what the step before left plus the step's term. -/
theorem tot4_step (n : ℕ) (hn : n + 1 < cfg0.N) (h0 : (n + 1) % 8 ≠ 0) :
    tot4 m c b (n + 1) = tot4 m c b n + term4 m c b (n + 1) := by
  unfold tot4 term4
  rw [dif_pos hn, dif_pos (Nat.lt_of_succ_lt hn), dif_pos hn, outsAt0_B m c ⟨n + 1, hn⟩ h0]
  exact (congrFun (BodyValues.later_4 c (grid0.coords ⟨n + 1, hn⟩) (ms0_0 ⟨n + 1, hn⟩) (hs0_0 ⟨n + 1, hn⟩) (ms0_1 ⟨n + 1, hn⟩) (hs0_1 ⟨n + 1, hn⟩)
      (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩)
      (fun h => h0 ((hcond0_0 ⟨n + 1, hn⟩).mp h)) (iblk m c 0 ⟨n + 1, hn⟩) (iblk m c 1 ⟨n + 1, hn⟩)
      (outsAt0 m c n (Nat.lt_of_succ_lt hn)).1 (outsAt0 m c n (Nat.lt_of_succ_lt hn)).2.1 (outsAt0 m c n (Nat.lt_of_succ_lt hn)).2.2) _).trans
    (PointValues.pay1_apply _ _ b)

/-- After the last step of group i the accumulator holds the sum of the group's eight terms. -/
theorem tot4_last (i : Fin 2) : tot4 m c b (8 * i.val + 7) = ∑ j : Fin 8, term4 m c b (8 * i.val + j.val) :=
  Cert.Regroup.acc_last 8 cfg0.N (by decide) (term4 m c b) (tot4 m c b) (tot4_reset m c b) (tot4_step m c b) i.val
    (by rw [show cfg0.N = 16 from N_0]; have := i.isLt; omega)

end Cert.KernelIdeal.Totals

end
-- ==== Proof.Finals.lean ====
/-
  The three [2, 3, 1] output arrays after the launch.

  Output block i (one [1, 3, 1] block per group of eight steps) is written back once, after the group's last step, and the two
  blocks tile the array. So each output array ends holding, at (i, b, 0), the sum over the eight steps of group i of what a step
  adds for batch entry b.
-/
import proofs.«154562_j68908455297535_2_alg».proof.Proof.Totals
import Idealize.ShloMosaic.Lib.Pipeline.Value

set_option maxRecDepth 16384

noncomputable section

open scoped BigOperators
open Idealize.ShloMosaic Idealize.ShloMosaic.TcCoe Idealize.SL.Sem
open Idealize.ShloMosaic.Pipeline (Dat)

namespace Cert.KernelIdeal.Finals

open Cert.KernelIdeal Cert.KernelIdeal.Gen Idealize.ShloMosaic.ValueIdx

variable (m : (ℓ : Loc nD τ sig) → Buf (Elt Ideal) ℓ) (c : Dev nD)

/-- The printed index maps of the three output windows, decided over the grid: block (t / 8, 0, 0) at step t. -/
theorem idx_facts2 : ∀ t : Fin cfg0.N, win0_2.index t (0 : Fin 3) = t.val / 8 ∧ win0_2.index t (1 : Fin 3) = 0 ∧ win0_2.index t (2 : Fin 3) = 0 :=
  (by decide +kernel : ∀ t : Fin grid0.N, _)
theorem idx_facts3 : ∀ t : Fin cfg0.N, win0_3.index t (0 : Fin 3) = t.val / 8 ∧ win0_3.index t (1 : Fin 3) = 0 ∧ win0_3.index t (2 : Fin 3) = 0 :=
  (by decide +kernel : ∀ t : Fin grid0.N, _)
theorem idx_facts4 : ∀ t : Fin cfg0.N, win0_4.index t (0 : Fin 3) = t.val / 8 ∧ win0_4.index t (1 : Fin 3) = 0 ∧ win0_4.index t (2 : Fin 3) = 0 :=
  (by decide +kernel : ∀ t : Fin grid0.N, _)

/-! ## Products -/

/-- The output array after the launch: entry (i, b, 0) is the sum over the eight steps j of group i of what step 8·i + j adds
    for batch entry b. -/
def G2 : S2x3x1.Idx → EReal :=
  fun y => ∑ j : Fin 8, Totals.term2 m c (y 1) (8 * (y 0).val + j.val)

/-- The write-back after the last step of a group writes the group's block of that array. -/
theorem flushed2_eq (t : Fin cfg0.N) (hf : (cfg0.win 2).flush t = true) :
    (dats m 0 c).flushed 2 t = ((cfg0.win 2).blk t).view.read (Elt Ideal) (G2 m c) := by
  have h7 : t.val % 8 = 7 := (flush0_2 t).mp hf
  have hN : t.val < 16 := lt_of_lt_of_eq t.isLt (show cfg0.N = 16 from N_0)
  obtain ⟨e0, e1, e2⟩ := idx_facts2 t
  show (cfg0.win 2).cut (grid0.coords t) ((dats m 0 c).after 2 t) = _
  rw [after0_2]
  funext y
  rw [View.read_apply]
  have hy0 : (y 0).val = 0 := by have : (y 0).val < 1 := (y 0).isLt; omega
  have hy2 : (y 2).val = 0 := by have : (y 2).val < 1 := (y 2).isLt; omega
  have hy : y = ix3 (0 : Fin 1) (y 1) (0 : Fin 1) := by
    funext a
    match a with
    | ⟨0, _⟩ => exact Fin.ext hy0
    | ⟨1, _⟩ => rfl
    | ⟨2, _⟩ => exact Fin.ext hy2
  have q0 : ((((cfg0.win 2).blk t).view.emb y) 0).val = t.val / 8 := by
    show win0_2.index t (0 : Fin 3) * 1 + 1 * (y 0).val = t.val / 8
    rw [e0, hy0]; omega
  have q1 : (((cfg0.win 2).blk t).view.emb y) 1 = y 1 := Fin.ext (by
    show win0_2.index t (1 : Fin 3) * 3 + 1 * (y 1).val = (y 1).val
    rw [e1]; omega)
  show (outsAt0 m c t.val t.isLt).1 y = ∑ j : Fin 8, Totals.term2 m c ((((cfg0.win 2).blk t).view.emb y) 1) (8 * ((((cfg0.win 2).blk t).view.emb y) 0).val + j.val)
  rw [q0, q1]
  have hlast := Totals.tot2_last m c (y 1) ⟨t.val / 8, by omega⟩
  unfold Totals.tot2 at hlast
  rw [dif_pos (lt_of_lt_of_eq (show 8 * (t.val / 8) + 7 < 16 by omega) (show cfg0.N = 16 from N_0).symm)] at hlast
  have ht : t.val = 8 * (t.val / 8) + 7 := by omega
  refine Eq.trans ?_ hlast
  have hpt : ∀ (n : ℕ) (hn : n < cfg0.N), n = t.val →
      (outsAt0 m c t.val t.isLt).1 y = (outsAt0 m c n hn).1 (ix3 (0 : Fin 1) (y 1) (0 : Fin 1)) := by
    intro n hn e
    subst e
    exact congrArg _ hy
  exact hpt _ _ ht.symm

/-- Every entry of the [2, 3, 1] array lies in the block of its group's last step. -/
theorem cover2 (y : S2x3x1.Idx) : ∃ t : Fin cfg0.N, (cfg0.win 2).flush t = true ∧ y ∈ ((cfg0.win 2).blk t).view.set := by
  have h0 : (y 0).val < 2 := (y 0).isLt
  have h1 : (y 1).val < 3 := (y 1).isLt
  have h2 : (y 2).val < 1 := (y 2).isLt
  let t : Fin cfg0.N := ⟨8 * (y 0).val + 7, by rw [show cfg0.N = 16 from N_0]; omega⟩
  obtain ⟨e0, e1, e2⟩ := idx_facts2 t
  have tv : t.val = 8 * (y 0).val + 7 := rfl
  refine ⟨t, (flush0_2 t).mpr (by rw [tv]; omega), ?_⟩
  show y ∈ ((View.whole main_v2_0).slice (win0_2.rect t)).set
  rw [View.set_slice_whole, Rect.mem_set_unit]
  intro a
  match a with
  | ⟨0, _⟩ =>
    show win0_2.index t (0 : Fin 3) * 1 ≤ (y 0).val ∧ (y 0).val < win0_2.index t (0 : Fin 3) * 1 + 1
    rw [e0, tv]; omega
  | ⟨1, _⟩ =>
    show win0_2.index t (1 : Fin 3) * 3 ≤ (y 1).val ∧ (y 1).val < win0_2.index t (1 : Fin 3) * 3 + 3
    rw [e1]; omega
  | ⟨2, _⟩ =>
    show win0_2.index t (2 : Fin 3) * 1 ≤ (y 2).val ∧ (y 2).val < win0_2.index t (2 : Fin 3) * 1 + 1
    rw [e2]; omega

/-- So the array ends holding the per-group sums. -/
theorem final2 : (dats m 0 c).arrAt 2 cfg0.N = G2 m c :=
  (dats m 0 c).arrAt_eq_of_cover 2 (G2 m c) (flushed2_eq m c) (cover2)

/-! ## Predictions -/

/-- The output array after the launch: entry (i, b, 0) is the sum over the eight steps j of group i of what step 8·i + j adds
    for batch entry b. -/
def G3 : S2x3x1.Idx → EReal :=
  fun y => ∑ j : Fin 8, Totals.term3 m c (y 1) (8 * (y 0).val + j.val)

/-- The write-back after the last step of a group writes the group's block of that array. -/
theorem flushed3_eq (t : Fin cfg0.N) (hf : (cfg0.win 3).flush t = true) :
    (dats m 0 c).flushed 3 t = ((cfg0.win 3).blk t).view.read (Elt Ideal) (G3 m c) := by
  have h7 : t.val % 8 = 7 := (flush0_3 t).mp hf
  have hN : t.val < 16 := lt_of_lt_of_eq t.isLt (show cfg0.N = 16 from N_0)
  obtain ⟨e0, e1, e2⟩ := idx_facts3 t
  show (cfg0.win 3).cut (grid0.coords t) ((dats m 0 c).after 3 t) = _
  rw [after0_3]
  funext y
  rw [View.read_apply]
  have hy0 : (y 0).val = 0 := by have : (y 0).val < 1 := (y 0).isLt; omega
  have hy2 : (y 2).val = 0 := by have : (y 2).val < 1 := (y 2).isLt; omega
  have hy : y = ix3 (0 : Fin 1) (y 1) (0 : Fin 1) := by
    funext a
    match a with
    | ⟨0, _⟩ => exact Fin.ext hy0
    | ⟨1, _⟩ => rfl
    | ⟨2, _⟩ => exact Fin.ext hy2
  have q0 : ((((cfg0.win 3).blk t).view.emb y) 0).val = t.val / 8 := by
    show win0_3.index t (0 : Fin 3) * 1 + 1 * (y 0).val = t.val / 8
    rw [e0, hy0]; omega
  have q1 : (((cfg0.win 3).blk t).view.emb y) 1 = y 1 := Fin.ext (by
    show win0_3.index t (1 : Fin 3) * 3 + 1 * (y 1).val = (y 1).val
    rw [e1]; omega)
  show (outsAt0 m c t.val t.isLt).2.1 y = ∑ j : Fin 8, Totals.term3 m c ((((cfg0.win 3).blk t).view.emb y) 1) (8 * ((((cfg0.win 3).blk t).view.emb y) 0).val + j.val)
  rw [q0, q1]
  have hlast := Totals.tot3_last m c (y 1) ⟨t.val / 8, by omega⟩
  unfold Totals.tot3 at hlast
  rw [dif_pos (lt_of_lt_of_eq (show 8 * (t.val / 8) + 7 < 16 by omega) (show cfg0.N = 16 from N_0).symm)] at hlast
  have ht : t.val = 8 * (t.val / 8) + 7 := by omega
  refine Eq.trans ?_ hlast
  have hpt : ∀ (n : ℕ) (hn : n < cfg0.N), n = t.val →
      (outsAt0 m c t.val t.isLt).2.1 y = (outsAt0 m c n hn).2.1 (ix3 (0 : Fin 1) (y 1) (0 : Fin 1)) := by
    intro n hn e
    subst e
    exact congrArg _ hy
  exact hpt _ _ ht.symm

/-- Every entry of the [2, 3, 1] array lies in the block of its group's last step. -/
theorem cover3 (y : S2x3x1.Idx) : ∃ t : Fin cfg0.N, (cfg0.win 3).flush t = true ∧ y ∈ ((cfg0.win 3).blk t).view.set := by
  have h0 : (y 0).val < 2 := (y 0).isLt
  have h1 : (y 1).val < 3 := (y 1).isLt
  have h2 : (y 2).val < 1 := (y 2).isLt
  let t : Fin cfg0.N := ⟨8 * (y 0).val + 7, by rw [show cfg0.N = 16 from N_0]; omega⟩
  obtain ⟨e0, e1, e2⟩ := idx_facts3 t
  have tv : t.val = 8 * (y 0).val + 7 := rfl
  refine ⟨t, (flush0_3 t).mpr (by rw [tv]; omega), ?_⟩
  show y ∈ ((View.whole main_v2_1).slice (win0_3.rect t)).set
  rw [View.set_slice_whole, Rect.mem_set_unit]
  intro a
  match a with
  | ⟨0, _⟩ =>
    show win0_3.index t (0 : Fin 3) * 1 ≤ (y 0).val ∧ (y 0).val < win0_3.index t (0 : Fin 3) * 1 + 1
    rw [e0, tv]; omega
  | ⟨1, _⟩ =>
    show win0_3.index t (1 : Fin 3) * 3 ≤ (y 1).val ∧ (y 1).val < win0_3.index t (1 : Fin 3) * 3 + 3
    rw [e1]; omega
  | ⟨2, _⟩ =>
    show win0_3.index t (2 : Fin 3) * 1 ≤ (y 2).val ∧ (y 2).val < win0_3.index t (2 : Fin 3) * 1 + 1
    rw [e2]; omega

/-- So the array ends holding the per-group sums. -/
theorem final3 : (dats m 0 c).arrAt 3 cfg0.N = G3 m c :=
  (dats m 0 c).arrAt_eq_of_cover 3 (G3 m c) (flushed3_eq m c) (cover3)

/-! ## Targets -/

/-- The output array after the launch: entry (i, b, 0) is the sum over the eight steps j of group i of what step 8·i + j adds
    for batch entry b. -/
def G4 : S2x3x1.Idx → EReal :=
  fun y => ∑ j : Fin 8, Totals.term4 m c (y 1) (8 * (y 0).val + j.val)

/-- The write-back after the last step of a group writes the group's block of that array. -/
theorem flushed4_eq (t : Fin cfg0.N) (hf : (cfg0.win 4).flush t = true) :
    (dats m 0 c).flushed 4 t = ((cfg0.win 4).blk t).view.read (Elt Ideal) (G4 m c) := by
  have h7 : t.val % 8 = 7 := (flush0_4 t).mp hf
  have hN : t.val < 16 := lt_of_lt_of_eq t.isLt (show cfg0.N = 16 from N_0)
  obtain ⟨e0, e1, e2⟩ := idx_facts4 t
  show (cfg0.win 4).cut (grid0.coords t) ((dats m 0 c).after 4 t) = _
  rw [after0_4]
  funext y
  rw [View.read_apply]
  have hy0 : (y 0).val = 0 := by have : (y 0).val < 1 := (y 0).isLt; omega
  have hy2 : (y 2).val = 0 := by have : (y 2).val < 1 := (y 2).isLt; omega
  have hy : y = ix3 (0 : Fin 1) (y 1) (0 : Fin 1) := by
    funext a
    match a with
    | ⟨0, _⟩ => exact Fin.ext hy0
    | ⟨1, _⟩ => rfl
    | ⟨2, _⟩ => exact Fin.ext hy2
  have q0 : ((((cfg0.win 4).blk t).view.emb y) 0).val = t.val / 8 := by
    show win0_4.index t (0 : Fin 3) * 1 + 1 * (y 0).val = t.val / 8
    rw [e0, hy0]; omega
  have q1 : (((cfg0.win 4).blk t).view.emb y) 1 = y 1 := Fin.ext (by
    show win0_4.index t (1 : Fin 3) * 3 + 1 * (y 1).val = (y 1).val
    rw [e1]; omega)
  show (outsAt0 m c t.val t.isLt).2.2 y = ∑ j : Fin 8, Totals.term4 m c ((((cfg0.win 4).blk t).view.emb y) 1) (8 * ((((cfg0.win 4).blk t).view.emb y) 0).val + j.val)
  rw [q0, q1]
  have hlast := Totals.tot4_last m c (y 1) ⟨t.val / 8, by omega⟩
  unfold Totals.tot4 at hlast
  rw [dif_pos (lt_of_lt_of_eq (show 8 * (t.val / 8) + 7 < 16 by omega) (show cfg0.N = 16 from N_0).symm)] at hlast
  have ht : t.val = 8 * (t.val / 8) + 7 := by omega
  refine Eq.trans ?_ hlast
  have hpt : ∀ (n : ℕ) (hn : n < cfg0.N), n = t.val →
      (outsAt0 m c t.val t.isLt).2.2 y = (outsAt0 m c n hn).2.2 (ix3 (0 : Fin 1) (y 1) (0 : Fin 1)) := by
    intro n hn e
    subst e
    exact congrArg _ hy
  exact hpt _ _ ht.symm

/-- Every entry of the [2, 3, 1] array lies in the block of its group's last step. -/
theorem cover4 (y : S2x3x1.Idx) : ∃ t : Fin cfg0.N, (cfg0.win 4).flush t = true ∧ y ∈ ((cfg0.win 4).blk t).view.set := by
  have h0 : (y 0).val < 2 := (y 0).isLt
  have h1 : (y 1).val < 3 := (y 1).isLt
  have h2 : (y 2).val < 1 := (y 2).isLt
  let t : Fin cfg0.N := ⟨8 * (y 0).val + 7, by rw [show cfg0.N = 16 from N_0]; omega⟩
  obtain ⟨e0, e1, e2⟩ := idx_facts4 t
  have tv : t.val = 8 * (y 0).val + 7 := rfl
  refine ⟨t, (flush0_4 t).mpr (by rw [tv]; omega), ?_⟩
  show y ∈ ((View.whole main_v2_2).slice (win0_4.rect t)).set
  rw [View.set_slice_whole, Rect.mem_set_unit]
  intro a
  match a with
  | ⟨0, _⟩ =>
    show win0_4.index t (0 : Fin 3) * 1 ≤ (y 0).val ∧ (y 0).val < win0_4.index t (0 : Fin 3) * 1 + 1
    rw [e0, tv]; omega
  | ⟨1, _⟩ =>
    show win0_4.index t (1 : Fin 3) * 3 ≤ (y 1).val ∧ (y 1).val < win0_4.index t (1 : Fin 3) * 3 + 3
    rw [e1]; omega
  | ⟨2, _⟩ =>
    show win0_4.index t (2 : Fin 3) * 1 ≤ (y 2).val ∧ (y 2).val < win0_4.index t (2 : Fin 3) * 1 + 1
    rw [e2]; omega

/-- So the array ends holding the per-group sums. -/
theorem final4 : (dats m 0 c).arrAt 4 cfg0.N = G4 m c :=
  (dats m 0 c).arrAt_eq_of_cover 4 (G4 m c) (flushed4_eq m c) (cover4)

end Cert.KernelIdeal.Finals

end
-- ==== Proof.Blocks.lean ====
/-
  What the two input windows hold at a step.

  Before the launch the two [3, 1, 192, 192, 192] volumes are re-laid as [3, 13824, 512]. The sixteen steps of the grid walk
  the 13824 rows in order, 864 rows per step: step t reads rows 864·t … 864·t + 863 of every batch entry, all 512 lanes.
-/
import proofs.«154562_j68908455297535_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

set_option maxRecDepth 16384

noncomputable section

open Idealize.ShloMosaic Idealize.ShloMosaic.TcCoe Idealize.SL.Sem

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- Row r of step t's block is row 864·t + r of the re-laid array. -/
def rowOf (t : Fin cfg0.N) (r : Fin 864) : Fin 13824 :=
  ⟨864 * t.val + r.val, by have := lt_of_lt_of_eq t.isLt (show cfg0.N = 16 from N_0); have := r.isLt; omega⟩

/-- The printed index maps of the two input windows, decided over the grid: batch block 0, row block t, lane block 0. -/
theorem idx_facts : ∀ t : Fin cfg0.N, win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0 :=
  (by decide +kernel : ∀ t : Fin grid0.N, _)

/-- The first window's block at step t, at (b, r, l): the re-laid predictions at (b, 864·t + r, l). -/
theorem iblk0_apply (c : Dev nD) (t : Fin cfg0.N) (b : Fin 3) (r : Fin 864) (l : Fin 512) :
    (iblk m c 0 t : Vec F S3x864x512 .f32) (ix3 b r l) = V m c main_v0 (ix3 b (rowOf t r) l) := by
  obtain ⟨e0, e1, e2, -, -, -⟩ := idx_facts t
  unfold iblk
  rw [View.read_apply]
  show V m c main_v0 _ = V m c main_v0 _
  congr 1
  funext a
  apply Fin.ext
  match a with
  | ⟨0, _⟩ => show win0_0.index t (0 : Fin 3) * 3 + 1 * b.val = b.val; rw [e0]; omega
  | ⟨1, _⟩ => show win0_0.index t (1 : Fin 3) * 864 + 1 * r.val = 864 * t.val + r.val; rw [e1]; omega
  | ⟨2, _⟩ => show win0_0.index t (2 : Fin 3) * 512 + 1 * l.val = l.val; rw [e2]; omega

/-- The second window's block at step t, at (b, r, l): the re-laid targets at (b, 864·t + r, l). -/
theorem iblk1_apply (c : Dev nD) (t : Fin cfg0.N) (b : Fin 3) (r : Fin 864) (l : Fin 512) :
    (iblk m c 1 t : Vec F S3x864x512 .f32) (ix3 b r l) = V m c main_v1 (ix3 b (rowOf t r) l) := by
  obtain ⟨-, -, -, e0, e1, e2⟩ := idx_facts t
  unfold iblk
  rw [View.read_apply]
  show V m c main_v1 _ = V m c main_v1 _
  congr 1
  funext a
  apply Fin.ext
  match a with
  | ⟨0, _⟩ => show win0_1.index t (0 : Fin 3) * 3 + 1 * b.val = b.val; rw [e0]; omega
  | ⟨1, _⟩ => show win0_1.index t (1 : Fin 3) * 864 + 1 * r.val = 864 * t.val + r.val; rw [e1]; omega
  | ⟨2, _⟩ => show win0_1.index t (2 : Fin 3) * 512 + 1 * l.val = l.val; rw [e2]; omega

/-- When the launch begins the first window's array is the predictions re-laid as [3, 13824, 512]. -/
theorem V_v0 (c : Dev nD) : (V m c main_v0 : S3x13824x512.Idx → Elt F .f32)
    = shapeCast S3x13824x512 (m ((c : Thread nD τ).loc main_arg0)) shapeCasts_S3x1x192x192x192_S3x13824x512 := by
  show StableHlo.after hostOps0 (fun b => m (c, b)) (Proc.devRef .tc main_v0) = _
  after_results
  rfl

/-- When the launch begins the second window's array is the targets re-laid as [3, 13824, 512]. -/
theorem V_v1 (c : Dev nD) : (V m c main_v1 : S3x13824x512.Idx → Elt F .f32)
    = shapeCast S3x13824x512 (m ((c : Thread nD τ).loc main_arg1)) shapeCasts_S3x1x192x192x192_S3x13824x512 := by
  show StableHlo.after hostOps0 (fun b => m (c, b)) (Proc.devRef .tc main_v1) = _
  after_results
  rfl

end Cert.KernelIdeal.Blocks

end
-- ==== Proof.Loss.lean ====
/-
  The Dice loss from the three per-batch sums, as both programs spell it.

  With I b the sum of sigmoid(pred) · target over batch entry b, P b the sum of sigmoid(pred), T b the sum of target and W the
  per-batch weights, the loss is

      ( 0 + Σ_b ( 1 − (2 · (I b · W b) + 1) / ((P b · W b + T b · W b) + 1) ) ) / 3 .

  Both programs compute it by the same host operations in the same order; they differ only in how they reach I, P and T.
  So it is stated once, as those host operations of three [3] vectors and the weights, and never opened.
-/
import Idealize.ShloMosaic.PureOps.Ideal.Laws

noncomputable section

namespace Cert.Loss

open Idealize.ShloMosaic

abbrev S3 : Shape := ⟨1, ![3]⟩
abbrev S_ : Shape := ⟨0, ![]⟩

/-- The loss from the three sums and the weights. The three side conditions are the shape facts the host operations ask for. -/
def loss (hb : S_.BroadcastsInDim S3 (![] : Fin 0 → Fin S3.rank)) (hr : S3.ReducesTo [0] S_) (h0 : 0 < S_.numel)
    (I P T W : FVec Ideal S3 .f32) : FVec Ideal S_ .f32 :=
  Host.divf (F := Ideal)
    (Host.reduceAdd (F := Ideal)
      (subf (broadcastInDim S3 ![] hb (constant (F := Ideal) S_ .f32 0x3F800000#32))
        (Host.divf (F := Ideal)
          (addf (mulf (broadcastInDim S3 ![] hb (constant (F := Ideal) S_ .f32 0x40000000#32)) (mulf I W))
            (broadcastInDim S3 ![] hb (constant (F := Ideal) S_ .f32 0x3F800000#32)))
          (addf (addf (mulf P W) (mulf T W)) (broadcastInDim S3 ![] hb (constant (F := Ideal) S_ .f32 0x3F800000#32)))))
      (constant (F := Ideal) S_ .f32 0x00000000#32) hr h0)
    (constant (F := Ideal) S_ .f32 0x40400000#32)

end Cert.Loss

end
-- ==== Proof.RefValue.lean ====
/-
  The reference's result as the loss of three plain sums.

  The reference applies the sigmoid spelt 1 / (1 + e^(−x)) to the whole volume, re-lays predictions and targets as
  [3, 7077888], and sums sigmoid(pred) · target, sigmoid(pred) and target along each batch entry's 7077888 positions from a zero
  initial value. On the extended reals the spelt sigmoid is the one function 1 / (1 + e^(−x)) the kernel's operation denotes,
  so each of the three sums at batch entry b is 0 plus a plain sum over the positions.
-/
import proofs.«154562_j68908455297535_2_alg».proof.Proof.Gen.ReferenceIdeal.Read
import proofs.«154562_j68908455297535_2_alg».proof.Proof.Loss
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-- The f32 word of 1.0 is the extended real 1. -/
theorem ofBits_one : Ideal.ofBits .f32 0x3F800000#32 = 1 := by
  simp [Ideal.ofBits, Ideal.ieee, -EReal.coe_mul]; norm_num

/-- A volume re-laid as [3, 7077888]. -/
abbrev flat (x : S3x1x192x192x192.Idx → EReal) : S3x7077888.Idx → EReal :=
  shapeCast S3x7077888 x shapeCasts_S3x1x192x192x192_S3x7077888

/-- The reference's spelt sigmoid, entry by entry, is 1 / (1 + e^(−x)). -/
theorem sigmoid_apply (x0 : S3x1x192x192x192.Idx → EReal) (i : S3x1x192x192x192.Idx) :
    val_main_v5 (F := Ideal) x0 i = Ideal.logistic (x0 i) := by
  rw [val_main_v5_apply, val_main_v4_apply, val_main_v3_apply, val_main_v2_apply, val_main_v1_apply, val_main_v0_apply,
    val_main_cst_0_apply, val_main_cst_apply]
  show Ideal.div (Ideal.ofBits .f32 0x3F800000#32) (Ideal.ofBits .f32 0x3F800000#32 + Ideal.exp (-(x0 i))) = Ideal.logistic (x0 i)
  rw [ofBits_one]
  rfl

/-- The re-laid sigmoid of the predictions at a position: the sigmoid of the re-laid predictions there. -/
theorem v6_apply (x0 : S3x1x192x192x192.Idx → EReal) (j : S3x7077888.Idx) :
    val_main_v6 (F := Ideal) x0 j = Ideal.logistic (flat x0 j) := by
  unfold val_main_v6
  rw [show val_main_v5 (F := Ideal) x0 = fun i => Ideal.logistic (x0 i) from funext (sigmoid_apply x0)]
  rfl

/-- Position k of batch entry b. -/
theorem idx9 (b : Fin 3) (k : Fin 7077888) : idx_main_v9 (ix1 b) k = ix2 b k :=
  funext fun a => Fin.ext (by match a with | ⟨0, _⟩ => rfl | ⟨1, _⟩ => rfl)
theorem idx11 (b : Fin 3) (k : Fin 7077888) : idx_main_v11 (ix1 b) k = ix2 b k :=
  funext fun a => Fin.ext (by match a with | ⟨0, _⟩ => rfl | ⟨1, _⟩ => rfl)
theorem idx13 (b : Fin 3) (k : Fin 7077888) : idx_main_v13 (ix1 b) k = ix2 b k :=
  funext fun a => Fin.ext (by match a with | ⟨0, _⟩ => rfl | ⟨1, _⟩ => rfl)

/-- The reference's sum of sigmoid(pred) · target over batch entry b. -/
theorem products_sum (x0 x1 : S3x1x192x192x192.Idx → EReal) (b : Fin 3) :
    val_main_v9 (F := Ideal) x0 x1 (ix1 b) = 0 + ∑ k : Fin 7077888, Ideal.logistic (flat x0 (ix2 b k)) * flat x1 (ix2 b k) := by
  rw [val_main_v9_apply]
  refine congrArg₂ (· + ·) Ideal.ofBits_zero_f32 (Finset.sum_congr rfl fun k _ => ?_)
  rw [idx9, val_main_v8_apply, v6_apply]
  rfl

/-- The reference's sum of sigmoid(pred) over batch entry b. -/
theorem predictions_sum (x0 : S3x1x192x192x192.Idx → EReal) (b : Fin 3) :
    val_main_v11 (F := Ideal) x0 (ix1 b) = 0 + ∑ k : Fin 7077888, Ideal.logistic (flat x0 (ix2 b k)) := by
  rw [val_main_v11_apply]
  refine congrArg₂ (· + ·) Ideal.ofBits_zero_f32 (Finset.sum_congr rfl fun k _ => ?_)
  rw [idx11, v6_apply]

/-- The reference's sum of target over batch entry b. -/
theorem targets_sum (x1 : S3x1x192x192x192.Idx → EReal) (b : Fin 3) :
    val_main_v13 (F := Ideal) x1 (ix1 b) = 0 + ∑ k : Fin 7077888, flat x1 (ix2 b k) := by
  rw [val_main_v13_apply]
  refine congrArg₂ (· + ·) Ideal.ofBits_zero_f32 (Finset.sum_congr rfl fun k _ => ?_)
  rw [idx13]
  rfl

/-- The reference's result is the loss of its three sums and the weights. -/
theorem result_eq (x0 x1 : S3x1x192x192x192.Idx → EReal) (x2 : S3.Idx → EReal) :
    val_main_v26 (F := Ideal) x0 x1 x2
      = Cert.Loss.loss bcast_S_S3 reducesTo_S3_S_d0 h_S_ (val_main_v9 (F := Ideal) x0 x1) (val_main_v11 (F := Ideal) x0)
          (val_main_v13 (F := Ideal) x1) x2 := rfl

end Cert.ReferenceIdeal.RefValue

end
-- ==== Proof.LibReshape.lean ====
/-
  Two re-layings of one array agree wherever their row-major positions agree.

  A reshape keeps every element at its row-major position. So if the same array is re-laid in two shapes, an index of the
  first and an index of the second that sit at the same row-major position read the same element.
-/
import Idealize.ShloMosaic.Lib.Pipeline.Value

namespace Cert.Reshape

open Idealize.ShloMosaic

/-- The same array re-laid as `t₁` and as `t₂`, read at indices with equal row-major positions. -/
theorem shapeCast_eq_shapeCast {s t₁ t₂ : Shape} {α : Type} (x : s.Idx → α) (h₁ : s.ShapeCasts t₁) (h₂ : s.ShapeCasts t₂)
    (j₁ : t₁.Idx) (j₂ : t₂.Idx) (e : (t₁.rowMajor j₁).val = (t₂.rowMajor j₂).val) :
    shapeCast t₁ x h₁ j₁ = shapeCast t₂ x h₂ j₂ :=
  shapeCast_apply x h₁ j₁ (Shape.reshapeEquiv h₂ j₂) ((Shape.rowMajor_reshapeEquiv h₂ j₂).trans e.symm)

/-- A reshape of an array transformed entry by entry is the transform of the reshape. -/
theorem shapeCast_map {s t : Shape} {α β : Type} (f : α → β) (x : s.Idx → α) (h : s.ShapeCasts t) (j : t.Idx) :
    shapeCast t (fun i => f (x i)) h j = f (shapeCast t x h j) := rfl

end Cert.Reshape
-- ==== Proof.Join.lean ====
/-
  The kernel's three sums are the reference's three sums.

  The kernel re-lays a volume as [3, 13824, 512] and the reference as [3, 7077888]; both keep row-major order, so row R, lane l of
  the first is position 512·R + l of the second. Step t = 8·i + j of the grid reads rows 864·t … 864·t + 863, so over group i,
  step j, row r and lane l the kernel visits position ((8·i + j)·864 + r)·512 + l: every position of the batch entry exactly once.
  The kernel's total — the host's sum of the two groups' totals, each a sum over eight steps of a sum over rows and lanes — is
  therefore the reference's single sum over all positions, regrouped. Addition on the extended reals is commutative and
  associative, so the regrouping is exact whatever the entries are.
-/
import proofs.«154562_j68908455297535_2_alg».proof.Proof.Finals
import proofs.«154562_j68908455297535_2_alg».proof.Proof.Blocks
import proofs.«154562_j68908455297535_2_alg».proof.Proof.RefValue
import proofs.«154562_j68908455297535_2_alg».proof.Proof.LibReshape
import proofs.«154562_j68908455297535_2_alg».proof.Proof.LibRegroup

set_option maxRecDepth 16384

noncomputable section

open scoped BigOperators
open Idealize.ShloMosaic Idealize.ShloMosaic.TcCoe Idealize.SL.Sem

namespace Cert.KernelIdeal.Join

open Cert.KernelIdeal Cert.KernelIdeal.Gen Idealize.ShloMosaic.ValueIdx
open Cert.ReferenceIdeal.RefValue (flat)

variable (m : (ℓ : Loc nD τ sig) → Buf (Elt Ideal) ℓ) (c : Dev nD)

/-! ## The host's sum of the two groups -/

/-- The host-side partial sum of a [2, 3, 1] output: summed over the group axis from a zero initial value, recast as [3]. -/
abbrev part (O : S2x3x1.Idx → EReal) : S3.Idx → EReal :=
  shapeCast S3 (Host.reduceAdd (F := Ideal) O (constant (F := Ideal) S_ .f32 0x00000000#32) reducesTo_S2x3x1_S3x1_d0 h_S_) shapeCasts_S3x1_S3

/-- At batch entry b it is 0 plus the two groups' entries. -/
theorem part_apply (O : S2x3x1.Idx → EReal) (b : Fin 3) : part O (ix1 b) = 0 + ∑ i : Fin 2, O (ix3 i b (0 : Fin 1)) := by
  refine (shapeCast_apply _ shapeCasts_S3x1_S3 (ix1 b) (ix2 b (0 : Fin 1)) (by
    rw [Shape.rowMajor_val_two, Shape.rowMajor_val_one]
    show b.val * 1 + 0 = b.val
    omega)).trans ?_
  simp only [Host.reduceAdd, Ideal.hostReduceAdd_def]
  rw [Ideal.hostReduceAdd_single reducesTo_S2x3x1_S3x1_d0 (by decide)]
  refine congrArg₂ (· + ·) Ideal.ofBits_zero_f32 (Finset.sum_congr rfl fun k _ => congrArg O (funext fun a => Fin.ext ?_))
  match a with
  | ⟨0, _⟩ => rfl
  | ⟨1, _⟩ => rfl
  | ⟨2, _⟩ => rfl

/-! ## Positions -/

/-- The flat position of lane l of row r of step j of group i. -/
def pos (i : Fin 2) (j : Fin 8) (r : Fin 864) (l : Fin 512) : Fin 7077888 :=
  ⟨((8 * i.val + j.val) * 864 + r.val) * 512 + l.val, by have := i.isLt; have := j.isLt; have := r.isLt; have := l.isLt; omega⟩

theorem pos_val (i : Fin 2) (j : Fin 8) (r : Fin 864) (l : Fin 512) :
    (pos i j r l).val = ((8 * i.val + j.val) * 864 + r.val) * 512 + l.val := rfl

/-- A volume re-laid as [3, 13824, 512], at row 864·t + r and lane l, is the volume re-laid as [3, 7077888] at the flat position. -/
theorem relaid_eq (x : Cert.ReferenceIdeal.S3x1x192x192x192.Idx → EReal) (b : Fin 3) (i : Fin 2) (j : Fin 8) (r : Fin 864) (l : Fin 512)
    (hlt : 8 * i.val + j.val < cfg0.N) :
    shapeCast S3x13824x512 x shapeCasts_S3x1x192x192x192_S3x13824x512 (ix3 b (Blocks.rowOf ⟨8 * i.val + j.val, hlt⟩ r) l)
      = flat x (ix2 b (pos i j r l)) :=
  Cert.Reshape.shapeCast_eq_shapeCast x _ _ _ _ (by
    rw [Shape.rowMajor_val_three, Shape.rowMajor_val_two]
    show (b.val * 13824 + (864 * (8 * i.val + j.val) + r.val)) * 512 + l.val
      = b.val * 7077888 + (((8 * i.val + j.val) * 864 + r.val) * 512 + l.val)
    omega)

/-- The first window's block at step 8·i + j, at (b, r, l): the flat predictions at the position. -/
theorem pred_at (b : Fin 3) (i : Fin 2) (j : Fin 8) (r : Fin 864) (l : Fin 512) (hlt : 8 * i.val + j.val < cfg0.N) :
    (iblk m c 0 ⟨8 * i.val + j.val, hlt⟩ : Vec Ideal S3x864x512 .f32) (ix3 b r l) = flat (m ((c : Thread nD τ).loc main_arg0)) (ix2 b (pos i j r l)) :=
  (Blocks.iblk0_apply m c ⟨8 * i.val + j.val, hlt⟩ b r l).trans
    ((congrFun (Blocks.V_v0 m c) _).trans (relaid_eq (m ((c : Thread nD τ).loc main_arg0)) b i j r l hlt))

/-- The second window's block at step 8·i + j, at (b, r, l): the flat targets at the position. -/
theorem targ_at (b : Fin 3) (i : Fin 2) (j : Fin 8) (r : Fin 864) (l : Fin 512) (hlt : 8 * i.val + j.val < cfg0.N) :
    (iblk m c 1 ⟨8 * i.val + j.val, hlt⟩ : Vec Ideal S3x864x512 .f32) (ix3 b r l) = flat (m ((c : Thread nD τ).loc main_arg1)) (ix2 b (pos i j r l)) :=
  (Blocks.iblk1_apply m c ⟨8 * i.val + j.val, hlt⟩ b r l).trans
    ((congrFun (Blocks.V_v1 m c) _).trans (relaid_eq (m ((c : Thread nD τ).loc main_arg1)) b i j r l hlt))

/-! ## Products -/

/-- What step 8·i + j adds for batch entry b, over the flat positions of the step's block. -/
theorem term2_eq (b : Fin 3) (i : Fin 2) (j : Fin 8) :
    Totals.term2 m c b (8 * i.val + j.val) = ∑ r : Fin 864, ∑ l : Fin 512, Ideal.logistic (flat (m ((c : Thread nD τ).loc main_arg0)) (ix2 b (pos i j r l))) * flat (m ((c : Thread nD τ).loc main_arg1)) (ix2 b (pos i j r l)) := by
  have hlt : 8 * i.val + j.val < cfg0.N := lt_of_lt_of_eq (show 8 * i.val + j.val < 16 by have := i.isLt; have := j.isLt; omega) (show cfg0.N = 16 from N_0).symm
  unfold Totals.term2
  rw [dif_pos hlt]
  unfold PointValues.products
  refine Finset.sum_congr rfl fun r _ => Finset.sum_congr rfl fun l _ => ?_
  exact congrArg₂ (fun u v : EReal => Ideal.logistic u * v) (pred_at m c b i j r l hlt) (targ_at m c b i j r l hlt)

/-- The two groups' totals together are the one sum over all 7077888 positions of the batch entry. -/
theorem groups2_eq (b : Fin 3) :
    ∑ i : Fin 2, Finals.G2 m c (ix3 i b (0 : Fin 1)) = ∑ k : Fin 7077888, Ideal.logistic (flat (m ((c : Thread nD τ).loc main_arg0)) (ix2 b k)) * flat (m ((c : Thread nD τ).loc main_arg1)) (ix2 b k) := by
  rw [Cert.Regroup.sum_nest 2 8 864 512 7077888 (by norm_num) (fun k : Fin 7077888 => Ideal.logistic (flat (m ((c : Thread nD τ).loc main_arg0)) (ix2 b k)) * flat (m ((c : Thread nD τ).loc main_arg1)) (ix2 b k)) pos pos_val]
  refine Finset.sum_congr rfl fun i _ => ?_
  show ∑ j : Fin 8, Totals.term2 m c b (8 * i.val + j.val) = _
  exact Finset.sum_congr rfl fun j _ => term2_eq m c b i j

/-- The kernel's host-side partial sum is the reference's sum. -/
theorem part2_eq : part (Finals.G2 m c) = Cert.ReferenceIdeal.Read.val_main_v9 (F := Ideal) (m ((c : Thread nD τ).loc main_arg0)) (m ((c : Thread nD τ).loc main_arg1)) := by
  funext y
  rw [eq_ix1 y]
  exact (part_apply _ (y 0)).trans ((congrArg (0 + ·) (groups2_eq m c (y 0))).trans (Cert.ReferenceIdeal.RefValue.products_sum (m ((c : Thread nD τ).loc main_arg0)) (m ((c : Thread nD τ).loc main_arg1)) (y 0)).symm)

/-! ## Predictions -/

/-- What step 8·i + j adds for batch entry b, over the flat positions of the step's block. -/
theorem term3_eq (b : Fin 3) (i : Fin 2) (j : Fin 8) :
    Totals.term3 m c b (8 * i.val + j.val) = ∑ r : Fin 864, ∑ l : Fin 512, Ideal.logistic (flat (m ((c : Thread nD τ).loc main_arg0)) (ix2 b (pos i j r l))) := by
  have hlt : 8 * i.val + j.val < cfg0.N := lt_of_lt_of_eq (show 8 * i.val + j.val < 16 by have := i.isLt; have := j.isLt; omega) (show cfg0.N = 16 from N_0).symm
  unfold Totals.term3
  rw [dif_pos hlt]
  unfold PointValues.predictions
  refine Finset.sum_congr rfl fun r _ => Finset.sum_congr rfl fun l _ => ?_
  exact congrArg (fun u : EReal => Ideal.logistic u) (pred_at m c b i j r l hlt)

/-- The two groups' totals together are the one sum over all 7077888 positions of the batch entry. -/
theorem groups3_eq (b : Fin 3) :
    ∑ i : Fin 2, Finals.G3 m c (ix3 i b (0 : Fin 1)) = ∑ k : Fin 7077888, Ideal.logistic (flat (m ((c : Thread nD τ).loc main_arg0)) (ix2 b k)) := by
  rw [Cert.Regroup.sum_nest 2 8 864 512 7077888 (by norm_num) (fun k : Fin 7077888 => Ideal.logistic (flat (m ((c : Thread nD τ).loc main_arg0)) (ix2 b k))) pos pos_val]
  refine Finset.sum_congr rfl fun i _ => ?_
  show ∑ j : Fin 8, Totals.term3 m c b (8 * i.val + j.val) = _
  exact Finset.sum_congr rfl fun j _ => term3_eq m c b i j

/-- The kernel's host-side partial sum is the reference's sum. -/
theorem part3_eq : part (Finals.G3 m c) = Cert.ReferenceIdeal.Read.val_main_v11 (F := Ideal) (m ((c : Thread nD τ).loc main_arg0)) := by
  funext y
  rw [eq_ix1 y]
  exact (part_apply _ (y 0)).trans ((congrArg (0 + ·) (groups3_eq m c (y 0))).trans (Cert.ReferenceIdeal.RefValue.predictions_sum (m ((c : Thread nD τ).loc main_arg0)) (y 0)).symm)

/-! ## Targets -/

/-- What step 8·i + j adds for batch entry b, over the flat positions of the step's block. -/
theorem term4_eq (b : Fin 3) (i : Fin 2) (j : Fin 8) :
    Totals.term4 m c b (8 * i.val + j.val) = ∑ r : Fin 864, ∑ l : Fin 512, flat (m ((c : Thread nD τ).loc main_arg1)) (ix2 b (pos i j r l)) := by
  have hlt : 8 * i.val + j.val < cfg0.N := lt_of_lt_of_eq (show 8 * i.val + j.val < 16 by have := i.isLt; have := j.isLt; omega) (show cfg0.N = 16 from N_0).symm
  unfold Totals.term4
  rw [dif_pos hlt]
  unfold PointValues.targets
  refine Finset.sum_congr rfl fun r _ => Finset.sum_congr rfl fun l _ => ?_
  exact targ_at m c b i j r l hlt

/-- The two groups' totals together are the one sum over all 7077888 positions of the batch entry. -/
theorem groups4_eq (b : Fin 3) :
    ∑ i : Fin 2, Finals.G4 m c (ix3 i b (0 : Fin 1)) = ∑ k : Fin 7077888, flat (m ((c : Thread nD τ).loc main_arg1)) (ix2 b k) := by
  rw [Cert.Regroup.sum_nest 2 8 864 512 7077888 (by norm_num) (fun k : Fin 7077888 => flat (m ((c : Thread nD τ).loc main_arg1)) (ix2 b k)) pos pos_val]
  refine Finset.sum_congr rfl fun i _ => ?_
  show ∑ j : Fin 8, Totals.term4 m c b (8 * i.val + j.val) = _
  exact Finset.sum_congr rfl fun j _ => term4_eq m c b i j

/-- The kernel's host-side partial sum is the reference's sum. -/
theorem part4_eq : part (Finals.G4 m c) = Cert.ReferenceIdeal.Read.val_main_v13 (F := Ideal) (m ((c : Thread nD τ).loc main_arg1)) := by
  funext y
  rw [eq_ix1 y]
  exact (part_apply _ (y 0)).trans ((congrArg (0 + ·) (groups4_eq m c (y 0))).trans (Cert.ReferenceIdeal.RefValue.targets_sum (m ((c : Thread nD τ).loc main_arg1)) (y 0)).symm)

end Cert.KernelIdeal.Join

end
-- ==== Proof.KernelValue.lean ====
/-
  The kernel program's result.

  After the launch the three [2, 3, 1] arrays hold the per-group sums; the host lines after it add the two groups of each,
  multiply by the weights and form the loss. So the program ends with its result at the loss of the three host-side partial
  sums and the weights, and its arguments unchanged.
-/
import proofs.«154562_j68908455297535_2_alg».proof.Proof.Join
import proofs.«154562_j68908455297535_2_alg».proof.Proof.Loss
import Idealize.ShloMosaic.Lib.Pipeline.Value
import Idealize.ShloMosaic.Lib.StableHlo.Run
import Idealize.ShloMosaic.Lib.Tactic

set_option maxRecDepth 16384

noncomputable section

open scoped BigOperators
open Idealize.ShloMosaic Idealize.ShloMosaic.TcCoe Idealize.SL.Sem Idealize.ShloMosaic.StableHlo
open Idealize.ShloMosaic.Pipeline (Dat)

namespace Cert.KernelIdeal.KernelValue

open Cert.KernelIdeal Cert.KernelIdeal.Gen Idealize.ShloMosaic.ValueIdx
open Cert.KernelIdeal.Join (part)

variable (m : (ℓ : Loc nD τ sig) → Buf (Elt Ideal) ℓ) (ρ : Dev nD → PrngReg)

/-- The program's result: the loss of the three host-side partial sums and the weights. -/
def result (c : Dev nD) : S_.Idx → EReal :=
  Cert.Loss.loss bcast_S_S3 reducesTo_S3_S_d0 h_S_ (part (Finals.G2 m c)) (part (Finals.G3 m c)) (part (Finals.G4 m c))
    (m ((c : Thread nD τ).loc main_arg2))

/-- The lines after the launch find each output array at its per-group sums, -/
theorem arr2 (c : Dev nD) : Pipeline.withArrays (cfgs 0).spec c (V0 m c) (fun w => (dats m 0 c).arrAt w (cfgs 0).N) (Proc.devRef .tc main_v2_0)
    = Finals.G2 m c :=
  (Pipeline.withArrays_arr spec0 launch0.win.arr_inj c _ _ 2).trans (Finals.final2 m c)
theorem arr3 (c : Dev nD) : Pipeline.withArrays (cfgs 0).spec c (V0 m c) (fun w => (dats m 0 c).arrAt w (cfgs 0).N) (Proc.devRef .tc main_v2_1)
    = Finals.G3 m c :=
  (Pipeline.withArrays_arr spec0 launch0.win.arr_inj c _ _ 3).trans (Finals.final3 m c)
theorem arr4 (c : Dev nD) : Pipeline.withArrays (cfgs 0).spec c (V0 m c) (fun w => (dats m 0 c).arrAt w (cfgs 0).N) (Proc.devRef .tc main_v2_2)
    = Finals.G4 m c :=
  (Pipeline.withArrays_arr spec0 launch0.win.arr_inj c _ _ 4).trans (Finals.final4 m c)
/-- and the weights as launched. -/
theorem arrW (c : Dev nD) : Pipeline.withArrays (cfgs 0).spec c (V0 m c) (fun w => (dats m 0 c).arrAt w (cfgs 0).N) (Proc.devRef .tc main_arg2)
    = m ((c : Thread nD τ).loc main_arg2) :=
  (Pipeline.withArrays_of_ne _ c (V0 m c) _ main_arg2 (by exact (by decide : ∀ w, Pipeline.arrRef spec0 w ≠ main_arg2))).trans
    (V_main_arg2 m c)

set_option maxHeartbeats 2000000 in
/-- What the lines after the launch leave in the result buffer. -/
theorem tail_eq (c : Dev nD) : Pipeline.afterTail₀ cfgs (dats m) 0 (V0 m) [hostOps1] c main_v23 = result m c := by
  unfold Pipeline.afterTail₀
  simp only [hostOps1, List.flatten_cons, List.flatten_nil, List.append_nil]
  after_results_simp
  rw [arr2, arr3, arr4, arrW]
  rfl

/-- Every weakly fair execution of the program terminates with the result buffer at `result` and the arguments unchanged. -/
theorem run : θ_run defs (onTc (τ := τ) (main (F := Ideal))) ⟨m, fun _ => 0, ρ⟩ fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v23 (Pipeline.mem_restRefs_of main_v23 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.KernelValue

end
-- ==== Proof.lean ====
/-
  The Dice loss computed by a two-group, eight-step accumulating kernel equals the Dice loss computed by whole-volume sums.

  Both programs compute, for predictions and targets of shape [3, 1, 192, 192, 192] and weights W of shape [3],

      ( 0 + Σ_b ( 1 − (2 · (I b · W b) + 1) / ((P b · W b + T b · W b) + 1) ) ) / 3 ,

  with I b, P b, T b the sums over batch entry b's 7077888 positions of sigmoid(pred) · target, sigmoid(pred) and target.

  The reference re-lays the volumes as [3, 7077888] and takes each sum in one reduction; its sigmoid is spelt 1 / (1 + e^(−x)).
  The kernel re-lays them as [3, 13824, 512], walks the rows in sixteen steps of 864 rows — two groups of eight steps, each group
  with its own [1, 3, 1] block of each output —, and at each step adds the step's row-and-lane sums to the group's accumulators
  (reset at the group's first step); the host then adds the two groups. Its sigmoid is the one operation that denotes
  1 / (1 + e^(−x)) on the extended reals, the same function as the reference's spelling at every extended real.

  So the only difference is the grouping of three sums, and addition on the extended reals is commutative and associative:
  the two results are equal whatever the inputs hold, and the finiteness precondition is never opened. What follows is the
  assembly: the kernel's accumulators by induction on the step, the output arrays from the write-backs of the two groups' last
  steps, the host lines after the launch, and the regrouping of the sum over 7077888 positions as 2 × 8 × 864 × 512.
  The word-level program's and the two idealized programs' frames are the generated ones; the ideal pass rewrote nothing.
-/
import proofs.«154562_j68908455297535_2_alg».proof.Defs
import proofs.«154562_j68908455297535_2_alg».proof.Proof.Gen.Kernel
import proofs.«154562_j68908455297535_2_alg».proof.Proof.Gen.Kernel.Skeleton
import proofs.«154562_j68908455297535_2_alg».proof.Proof.Gen.Kernel.Launch
import proofs.«154562_j68908455297535_2_alg».proof.Proof.Gen.Kernel.Points
import proofs.«154562_j68908455297535_2_alg».proof.Proof.Gen.Kernel.Frame
import proofs.«154562_j68908455297535_2_alg».proof.Proof.Gen.KernelIdeal
import proofs.«154562_j68908455297535_2_alg».proof.Proof.Gen.KernelIdeal.Skeleton
import proofs.«154562_j68908455297535_2_alg».proof.Proof.Gen.KernelIdeal.Launch
import proofs.«154562_j68908455297535_2_alg».proof.Proof.Gen.KernelIdeal.Points
import proofs.«154562_j68908455297535_2_alg».proof.Proof.Gen.KernelIdeal.Frame
import proofs.«154562_j68908455297535_2_alg».proof.Proof.Gen.ReferenceIdeal
import proofs.«154562_j68908455297535_2_alg».proof.Proof.Gen.Pre_finite_inputs
import proofs.«154562_j68908455297535_2_alg».proof.Proof.Gen.ReferenceIdeal.Run
import proofs.«154562_j68908455297535_2_alg».proof.Proof.Gen.ReferenceIdeal.Read
import proofs.«154562_j68908455297535_2_alg».proof.Proof.KernelValue
import proofs.«154562_j68908455297535_2_alg».proof.Proof.RefValue
import proofs.«154562_j68908455297535_2_alg».proof.Proof.Join
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- The idealized kernel runs and leaves its arguments unchanged. -/
theorem frame_ki : Cert.frame_KernelIdeal := fun m ρ _ => Cert.KernelIdeal.Gen.frame m ρ

/-- The idealized reference runs and leaves its arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the loss of the same three sums: the kernel's
    host-side partial sums are the reference's whole sums, regrouped. -/
theorem algebraic : Cert.algebraic_KernelIdeal_ReferenceIdeal := by
  intro m ρ m' ρ' _ hagree
  refine ⟨fun c => Cert.KernelIdeal.KernelValue.result m c, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, Cert.ReferenceIdeal.RefValue.result_eq, (hagree c).1, (hagree c).2.1, (hagree c).2.2]
  show _ = Cert.Loss.loss _ _ _ (Cert.KernelIdeal.Join.part (Cert.KernelIdeal.Finals.G2 m c))
    (Cert.KernelIdeal.Join.part (Cert.KernelIdeal.Finals.G3 m c)) (Cert.KernelIdeal.Join.part (Cert.KernelIdeal.Finals.G4 m c)) _
  rw [Cert.KernelIdeal.Join.part2_eq m c, Cert.KernelIdeal.Join.part3_eq m c, Cert.KernelIdeal.Join.part4_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
